-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x9x256 : Shape := ⟨4, ![64, 128, 9, 256]⟩
abbrev S64x128 : Shape := ⟨2, ![64, 128]⟩
abbrev S256x512 : Shape := ⟨2, ![256, 512]⟩
abbrev S512 : Shape := ⟨1, ![512]⟩
abbrev S512x8 : Shape := ⟨2, ![512, 8]⟩
abbrev S8 : Shape := ⟨1, ![8]⟩
abbrev S1 : Shape := ⟨1, ![1]⟩
abbrev S_ : Shape := ⟨0, ![]⟩

class Facts : Prop where
  bcast_S_S64x128x9x256 : S_.BroadcastsInDim S64x128x9x256 (![] : Fin 0 → Fin S64x128x9x256.rank)
  reducesTo_S64x128x9x256_S_d0_1_2_3 : S64x128x9x256.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512 .f32) (main_arg5 : FVec F S512x8 .f32) (main_arg6 : FVec F S8 .f32) (main_arg7 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x8 .f32 := Host.absf main_arg5
  let main_cst_8 : FVec F S_ .f32 := constant S_ .f32 0x7F800000#32
  let main_v25 : FVec F S512x8 .f32 := broadcastInDim S512x8 ![] bcast_S_S512x8 main_cst_8
  let main_v26 : IVec S512x8 1 := cmpf .olt main_v24 main_v25
  let main_c_9 : IVec S_ 1 := constantI S_ 1 1#1
  let main_v27 : IVec S_ 1 := (fun x v => Host.reduce IntOp.andi x v reducesTo_S512x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_v33

def fn {F : FTy → Type} [FloatOps F] (main_arg0 : FVec F S64x128x9x256 .f32) (main_arg1 : FVec F S64x128x9x256 .f32) (main_arg2 : FVec F S64x128 .f32) (main_arg3 : FVec F S256x512 .f32) (main_arg4 : FVec F S512 .f32) (main_arg5 : FVec F S512x8 .f32) (main_arg6 : FVec F S8 .f32) (main_arg7 : FVec F S1 .f32) : IVec S_ 1 :=
  let main_v0 : FVec F S64x128x9x256 .f32 := Host.absf main_arg0
  let main_cst : FVec F S_ .f32 := constant S_ .f32 0x7F800000#32
  let main_v1 : FVec F S64x128x9x256 .f32 := broadcastInDim S64x128x9x256 ![] bcast_S_S64x128x9x256 main_cst
  let main_v2 : IVec S64x128x9x256 1 := cmpf .olt main_v0 main_v1
  let main_c : IVec S_ 1 := constantI S_ 1 1#1
  let main_v3 : IVec S_ 1 := (fun x v => Host.reduce IntOp.andi x v reducesTo_S64x128x9x256_S_d0_1_2_3 h_S_) main_v2 main_c
  let main_v4 : FVec F S64x128x9x256 .f32 := Host.absf main_arg1
  let main_cst_0 : FVec F S_ .f32 := constant S_ .f32 0x7F800000#32
  let main_v5 : FVec F S64x128x9x256 .f32 := broadcastInDim S64x128x9x256 ![] bcast_S_S64x128x9x256 main_cst_0
  let main_v6 : IVec S64x128x9x256 1 := cmpf .olt main_v4 main_v5
  let main_c_1 : IVec S_ 1 := constantI S_ 1 1#1
  let main_v7 : IVec S_ 1 := (fun x v => Host.reduce IntOp.andi x v reducesTo_S64x128x9x256_S_d0_1_2_3 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_v13 main_v16
-- ==== Kernel.lean ====
abbrev S64x128x9x256 : Shape := ⟨4, ![64, 128, 9, 256]⟩
abbrev S64x128 : Shape := ⟨2, ![64, 128]⟩
abbrev S256x512 : Shape := ⟨2, ![256, 512]⟩
abbrev S512 : Shape := ⟨1, ![512]⟩
abbrev S512x8 : Shape := ⟨2, ![512, 8]⟩
abbrev S8 : Shape := ⟨1, ![8]⟩
abbrev S1 : Shape := ⟨1, ![1]⟩
abbrev S64x9x128x256 : Shape := ⟨4, ![64, 9, 128, 256]⟩
abbrev S1x512 : Shape := ⟨2, ![1, 512]⟩
abbrev S1x8 : Shape := ⟨2, ![1, 8]⟩
abbrev S64x128x2 : Shape := ⟨3, ![64, 128, 2]⟩
abbrev S4x1x128x256 : Shape := ⟨4, ![4, 1, 128, 256]⟩
abbrev S4x9x128x256 : Shape := ⟨4, ![4, 9, 128, 256]⟩
abbrev S4x128x2 : Shape := ⟨3, ![4, 128, 2]⟩
abbrev S4x128x256 : Shape := ⟨3, ![4, 128, 256]⟩
abbrev S512x256 : Shape := ⟨2, ![512, 256]⟩
abbrev S512x512 : Shape := ⟨2, ![512, 512]⟩
abbrev S512x1 : Shape := ⟨2, ![512, 1]⟩
abbrev S4x128x1 : Shape := ⟨3, ![4, 128, 1]⟩
abbrev S64x128x1 : Shape := ⟨3, ![64, 128, 1]⟩
abbrev S1x1x1 : Shape := ⟨3, ![1, 1, 1]⟩
abbrev S64x128x4 : Shape := ⟨3, ![64, 128, 4]⟩

abbrev nBuf : Space → Nat
  | .hbm => 19
  | .vmem => 10
  | .smem => 0
  | _ => 0

abbrev bufTy : (tb : Table) → Fin (tcTables nBuf tb) → BufTy
  | .hbm, ⟨0, _⟩ => ⟨S64x128x9x256, .f32⟩
  | .hbm, ⟨1, _⟩ => ⟨S64x128x9x256, .f32⟩
  | .hbm, ⟨2, _⟩ => ⟨S64x128, .f32⟩
  | .hbm, ⟨3, _⟩ => ⟨S256x512, .f32⟩
  | .hbm, ⟨4, _⟩ => ⟨S512, .f32⟩
  | .hbm, ⟨5, _⟩ => ⟨S512x8, .f32⟩
  | .hbm, ⟨6, _⟩ => ⟨S8, .f32⟩
  | .hbm, ⟨7, _⟩ => ⟨S1, .f32⟩
  | .hbm, ⟨8, _⟩ => ⟨S64x9x128x256, .f32⟩
  | .hbm, ⟨9, _⟩ => ⟨S64x9x128x256, .f32⟩
  | .hbm, ⟨10, _⟩ => ⟨S256x512, .bf16⟩
  | .hbm, ⟨11, _⟩ => ⟨S1x512, .f32⟩
  | .hbm, ⟨12, _⟩ => ⟨S512x8, .bf16⟩
  | .hbm, ⟨13, _⟩ => ⟨S1x8, .f32⟩
  | .hbm, ⟨14, _⟩ => ⟨S64x128x2, .f32⟩
  | .hbm, ⟨15, _⟩ => ⟨S64x128x1, .f32⟩
  | .hbm, ⟨16, _⟩ => ⟨S1x1x1, .f32⟩
  | .hbm, ⟨17, _⟩ => ⟨S64x128x1, .f32⟩
  | .hbm, ⟨18, _⟩ => ⟨S64x128x4, .f32⟩
  | .local _ .vmem, ⟨0, _⟩ => ⟨S4x1x128x256, .f32⟩
  | .local _ .vmem, ⟨1, _⟩ => ⟨S4x1x128x256, .f32⟩
  | .local _ .vmem, ⟨2, _⟩ => ⟨S4x9x128x256, .f32⟩
  | .local _ .vmem, ⟨3, _⟩ => ⟨S4x9x128x256, .f32⟩
  | .local _ .vmem, ⟨4, _⟩ => ⟨S256x512, .bf16⟩
  | .local _ .vmem, ⟨5, _⟩ => ⟨S1x512, .f32⟩
  | .local _ .vmem, ⟨6, _⟩ => ⟨S512x8, .bf16⟩
  | .local _ .vmem, ⟨7, _⟩ => ⟨S1x8, .f32⟩
  | .local _ .vmem, ⟨8, _⟩ => ⟨S4x128x2, .f32⟩
  | .local _ .vmem, ⟨9, _⟩ => ⟨S4x128x2, .f32⟩
  | _, _ => ⟨S64x128x9x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x9x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x128x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x128x9x256_S64x9x128x256_0_2_1_3 : S64x128x9x256.Transposes [0, 2, 1, 3] S64x9x128x256
  bitsLt_bf16_f32 : FTy.bits .bf16 < FTy.bits .f32
  shapeCasts_S512_S1x512 : S512.ShapeCasts S1x512
  shapeCasts_S8_S1x8 : S8.ShapeCasts S1x8
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S4x1x128x256_S4x1x128x256_0_0_0_0 : ∀ a, (![0, 0, 0, 0] : Fin 4 → Nat) a + S4x1x128x256.size a ≤ S4x1x128x256.size a
  h_S4x1x128x256 : 0 < S4x1x128x256.numel
  shapeCasts_S4x1x128x256_S4x128x256 : S4x1x128x256.ShapeCasts S4x128x256
  shapeCasts_S4x128x256_S512x256 : S4x128x256.ShapeCasts S512x256
  broadcasts_S1x512_S512x512 : S1x512.Broadcasts S512x512
  broadcasts_S1x8_S512x8 : S1x8.Broadcasts S512x8
  reduces_S512x8_S512 : S512x8.Reduces [1] S512
  shapeCasts_S512_S512x1 : S512.ShapeCasts S512x1
  inb_S4x9x128x256_S4x1x128x256_0_1_0_0 : ∀ a, (![0, 1, 0, 0] : Fin 4 → Nat) a + S4x1x128x256.size a ≤ S4x9x128x256.size a
  slices_S512x8_o0_0_S512x1 : S512x8.Slices ![0, 0] S512x1
  inb_S4x9x128x256_S4x1x128x256_0_2_0_0 : ∀ a, (![0, 2, 0, 0] : Fin 4 → Nat) a + S4x1x128x256.size a ≤ S4x9x128x256.size a
  slices_S512x8_o0_1_S512x1 : S512x8.Slices ![0, 1] S512x1
  inb_S4x9x128x256_S4x1x128x256_0_3_0_0 : ∀ a, (![0, 3, 0, 0] : Fin 4 → Nat) a + S4x1x128x256.size a ≤ S4x9x128x256.size a
  slices_S512x8_o0_2_S512x1 : S512x8.Slices ![0, 2] S512x1
  inb_S4x9x128x256_S4x1x128x256_0_4_0_0 : ∀ a, (![0, 4, 0, 0] : Fin 4 → Nat) a + S4x1x128x256.size a ≤ S4x9x128x256.size a
  slices_S512x8_o0_3_S512x1 : S512x8.Slices ![0, 3] S512x1
  inb_S4x9x128x256_S4x1x128x256_0_5_0_0 : ∀ a, (![0, 5, 0, 0] : Fin 4 → Nat) a + S4x1x128x256.size a ≤ S4x9x128x256.size a
  slices_S512x8_o0_4_S512x1 : S512x8.Slices ![0, 4] S512x1
  inb_S4x9x128x256_S4x1x128x256_0_6_0_0 : ∀ a, (![0, 6, 0, 0] : Fin 4 → Nat) a + S4x1x128x256.size a ≤ S4x9x128x256.size a
  slices_S512x8_o0_5_S512x1 : S512x8.Slices ![0, 5] S512x1
  inb_S4x9x128x256_S4x1x128x256_0_7_0_0 : ∀ a, (![0, 7, 0, 0] : Fin 4 → Nat) a + S4x1x128x256.size a ≤ S4x9x128x256.size a
  slices_S512x8_o0_6_S512x1 : S512x8.Slices ![0, 6] S512x1
  inb_S4x9x128x256_S4x1x128x256_0_8_0_0 : ∀ a, (![0, 8, 0, 0] : Fin 4 → Nat) a + S4x1x128x256.size a ≤ S4x9x128x256.size a
  slices_S512x8_o0_7_S512x1 : S512x8.Slices ![0, 7] S512x1
  shapeCasts_S512x1_S4x128x1 : S512x1.ShapeCasts S4x128x1
  inb_S4x128x2_S4x128x1_0_0_0 : ∀ a, (![0, 0, 0] : Fin 3 → Nat) a + S4x128x1.size a ≤ S4x128x2.size a
  h_S4x128x1 : 0 < S4x128x1.numel
  inb_S4x128x2_S4x128x1_0_0_1 : ∀ a, (![0, 0, 1] : Fin 3 → Nat) a + S4x128x1.size a ≤ S4x128x2.size a
  shapeCasts_S64x128_S64x128x1 : S64x128.ShapeCasts S64x128x1
  shapeCasts_S1_S1x1x1 : S1.ShapeCasts S1x1x1
  bcast_S1x1x1_S64x128x1_0_1_2 : S1x1x1.BroadcastsInDim S64x128x1 (![0, 1, 2] : Fin 3 → Fin S64x128x1.rank)
  concatenates_S64x128x2_S64x128x1_S64x128x1_S64x128x4_d2 : Shape.Concatenates [S64x128x2, S64x128x1, S64x128x1] S64x128x4 2
  dot_S512x256_S256x512_S512x512_1_0_0_1_n_n_wf : DotDims.WF S512x256 S256x512 S512x512 [1] [0] [0] [1] [] []
  dot_S512x512_S512x8_S512x8_1_0_0_1_n_n_wf : DotDims.WF S512x512 S512x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x128x256.size a ≤ S64x9x128x256.size a
  hwx0_0 : ∀ i : grid0.Coords, EltTy.bits .f32 = 32 ∨ (Rect.block (s := S64x9x128x256) S4x1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x9x128x256.size a ≤ S64x9x128x256.size a
  hwx0_1 : ∀ i : grid0.Coords, EltTy.bits .f32 = 32 ∨ (Rect.block (s := S64x9x128x256) S4x9x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S512x8.size a
  hwx0_4 : ∀ i : grid0.Coords, EltTy.bits .bf16 = 32 ∨ (Rect.block (s := S512x8) S512x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x128x2.size a ≤ S64x128x2.size a
  hwx0_6 : ∀ i : grid0.Coords, EltTy.bits .f32 = 32 ∨ (Rect.block (s := S64x128x2) S4x128x2.size (cc0_transform_6 i) (hinb0_6 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf

abbrev win0_0 : Pipeline.Window sig grid0 :=
  Pipeline.Window.ofSpec (Memref.whole main_call0_v0) S4x1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4x9x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S512x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S4x128x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x128x9x256 : Shape := ⟨4, ![64, 128, 9, 256]⟩
abbrev S64x128 : Shape := ⟨2, ![64, 128]⟩
abbrev S256x512 : Shape := ⟨2, ![256, 512]⟩
abbrev S512 : Shape := ⟨1, ![512]⟩
abbrev S512x8 : Shape := ⟨2, ![512, 8]⟩
abbrev S8 : Shape := ⟨1, ![8]⟩
abbrev S1 : Shape := ⟨1, ![1]⟩
abbrev S64x128x1x256 : Shape := ⟨4, ![64, 128, 1, 256]⟩
abbrev S64x128x256 : Shape := ⟨3, ![64, 128, 256]⟩
abbrev S8192x256 : Shape := ⟨2, ![8192, 256]⟩
abbrev S8192x512 : Shape := ⟨2, ![8192, 512]⟩
abbrev S1x512 : Shape := ⟨2, ![1, 512]⟩
abbrev S_ : Shape := ⟨0, ![]⟩
abbrev S8192x8 : Shape := ⟨2, ![8192, 8]⟩
abbrev S1x8 : Shape := ⟨2, ![1, 8]⟩
abbrev S8192 : Shape := ⟨1, ![8192]⟩
abbrev S64x128x1 : Shape := ⟨3, ![64, 128, 1]⟩
abbrev S1x1x1 : Shape := ⟨3, ![1, 1, 1]⟩
abbrev S8192x1 : Shape := ⟨2, ![8192, 1]⟩
abbrev S64x128x4 : Shape := ⟨3, ![64, 128, 4]⟩

abbrev nBuf : Space → Nat
  | .hbm => 304
  | .vmem => 0
  | .smem => 0
  | _ => 0

abbrev hbmTy0_0 (i : Nat) : BufTy := match i % 128 with
  | 0 => ⟨S64x128x9x256, .f32⟩
  | 1 => ⟨S64x128x9x256, .f32⟩
  | 2 => ⟨S64x128, .f32⟩
  | 3 => ⟨S256x512, .f32⟩
  | 4 => ⟨S512, .f32⟩
  | 5 => ⟨S512x8, .f32⟩
  | 6 => ⟨S8, .f32⟩
  | 7 => ⟨S1, .f32⟩
  | 8 => ⟨S64x128x1x256, .f32⟩
  | 9 => ⟨S64x128x256, .f32⟩
  | 10 => ⟨S8192x256, .f32⟩
  | 11 => ⟨S8192x512, .f32⟩
  | 12 => ⟨S1x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x8, .f32⟩
  | 19 => ⟨S1x8, .f32⟩
  | 20 => ⟨S8192x8, .f32⟩
  | 21 => ⟨S8192x8, .f32⟩
  | 22 => ⟨S_, .f32⟩
  | 23 => ⟨S8192x8, .f32⟩
  | 24 => ⟨S8192x8, .f32⟩
  | 25 => ⟨S8192x8, .f32⟩
  | 26 => ⟨S8192x8, .f32⟩
  | 27 => ⟨S8192x8, .i1⟩
  | 28 => ⟨S8192x8, .f32⟩
  | 29 => ⟨S8192x8, .f32⟩
  | 30 => ⟨S8192x8, .f32⟩
  | 31 => ⟨S8192x8, .f32⟩
  | 32 => ⟨S8192x8, .f32⟩
  | 33 => ⟨S8192x8, .f32⟩
  | 34 => ⟨S8192x8, .f32⟩
  | 35 => ⟨S8192x8, .f32⟩
  | 36 => ⟨S_, .f32⟩
  | 37 => ⟨S8192, .f32⟩
  | 38 => ⟨S64x128x1, .f32⟩
  | 39 => ⟨S64x128x1, .f32⟩
  | 40 => ⟨S_, .f32⟩
  | 41 => ⟨S64x128x1, .f32⟩
  | 42 => ⟨S1x1x1, .f32⟩
  | 43 => ⟨S64x128x1, .f32⟩
  | 44 => ⟨S64x128x1, .f32⟩
  | 45 => ⟨S_, .f32⟩
  | 46 => ⟨S64x128x1, .f32⟩
  | 47 => ⟨S64x128x1x256, .f32⟩
  | 48 => ⟨S64x128x256, .f32⟩
  | 49 => ⟨S8192x256, .f32⟩
  | 50 => ⟨S8192x512, .f32⟩
  | 51 => ⟨S1x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x8, .f32⟩
  | 58 => ⟨S1x8, .f32⟩
  | 59 => ⟨S8192x8, .f32⟩
  | 60 => ⟨S8192x8, .f32⟩
  | 61 => ⟨S_, .f32⟩
  | 62 => ⟨S8192x8, .f32⟩
  | 63 => ⟨S8192x8, .f32⟩
  | 64 => ⟨S8192x8, .f32⟩
  | 65 => ⟨S8192x8, .f32⟩
  | 66 => ⟨S8192x8, .i1⟩
  | 67 => ⟨S8192x8, .f32⟩
  | 68 => ⟨S8192x8, .f32⟩
  | 69 => ⟨S8192x8, .f32⟩
  | 70 => ⟨S8192x8, .f32⟩
  | 71 => ⟨S8192x8, .f32⟩
  | 72 => ⟨S8192x8, .f32⟩
  | 73 => ⟨S8192x8, .f32⟩
  | 74 => ⟨S8192x8, .f32⟩
  | 75 => ⟨S8192x1, .f32⟩
  | 76 => ⟨S8192, .f32⟩
  | 77 => ⟨S64x128x1, .f32⟩
  | 78 => ⟨S64x128x1, .f32⟩
  | 79 => ⟨S64x128x1x256, .f32⟩
  | 80 => ⟨S64x128x256, .f32⟩
  | 81 => ⟨S8192x256, .f32⟩
  | 82 => ⟨S8192x512, .f32⟩
  | 83 => ⟨S1x512, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S8192x8, .f32⟩
  | 90 => ⟨S1x8, .f32⟩
  | 91 => ⟨S8192x8, .f32⟩
  | 92 => ⟨S8192x8, .f32⟩
  | 93 => ⟨S_, .f32⟩
  | 94 => ⟨S8192x8, .f32⟩
  | 95 => ⟨S8192x8, .f32⟩
  | 96 => ⟨S8192x8, .f32⟩
  | 97 => ⟨S8192x8, .f32⟩
  | 98 => ⟨S8192x8, .i1⟩
  | 99 => ⟨S8192x8, .f32⟩
  | 100 => ⟨S8192x8, .f32⟩
  | 101 => ⟨S8192x8, .f32⟩
  | 102 => ⟨S8192x8, .f32⟩
  | 103 => ⟨S8192x8, .f32⟩
  | 104 => ⟨S8192x8, .f32⟩
  | 105 => ⟨S8192x8, .f32⟩
  | 106 => ⟨S8192x8, .f32⟩
  | 107 => ⟨S8192x1, .f32⟩
  | 108 => ⟨S8192, .f32⟩
  | 109 => ⟨S64x128x1, .f32⟩
  | 110 => ⟨S64x128x1, .f32⟩
  | 111 => ⟨S64x128x1x256, .f32⟩
  | 112 => ⟨S64x128x256, .f32⟩
  | 113 => ⟨S8192x256, .f32⟩
  | 114 => ⟨S8192x512, .f32⟩
  | 115 => ⟨S1x512, .f32⟩
  | 116 => ⟨S8192x512, .f32⟩
  | 117 => ⟨S8192x512, .f32⟩
  | 118 => ⟨S_, .f32⟩
  | 119 => ⟨S8192x512, .f32⟩
  | 120 => ⟨S8192x512, .f32⟩
  | 121 => ⟨S8192x8, .f32⟩
  | 122 => ⟨S1x8, .f32⟩
  | 123 => ⟨S8192x8, .f32⟩
  | 124 => ⟨S8192x8, .f32⟩
  | 125 => ⟨S_, .f32⟩
  | 126 => ⟨S8192x8, .f32⟩
  | 127 => ⟨S8192x8, .f32⟩
  | _ => ⟨S64x128x9x256, .f32⟩

abbrev hbmTy0_1 (i : Nat) : BufTy := match i % 128 with
  | 0 => ⟨S8192x8, .f32⟩
  | 1 => ⟨S8192x8, .f32⟩
  | 2 => ⟨S8192x8, .i1⟩
  | 3 => ⟨S8192x8, .f32⟩
  | 4 => ⟨S8192x8, .f32⟩
  | 5 => ⟨S8192x8, .f32⟩
  | 6 => ⟨S8192x8, .f32⟩
  | 7 => ⟨S8192x8, .f32⟩
  | 8 => ⟨S8192x8, .f32⟩
  | 9 => ⟨S8192x8, .f32⟩
  | 10 => ⟨S8192x8, .f32⟩
  | 11 => ⟨S8192x1, .f32⟩
  | 12 => ⟨S8192, .f32⟩
  | 13 => ⟨S64x128x1, .f32⟩
  | 14 => ⟨S64x128x1, .f32⟩
  | 15 => ⟨S64x128x1x256, .f32⟩
  | 16 => ⟨S64x128x256, .f32⟩
  | 17 => ⟨S8192x256, .f32⟩
  | 18 => ⟨S8192x512, .f32⟩
  | 19 => ⟨S1x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x8, .f32⟩
  | 26 => ⟨S1x8, .f32⟩
  | 27 => ⟨S8192x8, .f32⟩
  | 28 => ⟨S8192x8, .f32⟩
  | 29 => ⟨S_, .f32⟩
  | 30 => ⟨S8192x8, .f32⟩
  | 31 => ⟨S8192x8, .f32⟩
  | 32 => ⟨S8192x8, .f32⟩
  | 33 => ⟨S8192x8, .f32⟩
  | 34 => ⟨S8192x8, .i1⟩
  | 35 => ⟨S8192x8, .f32⟩
  | 36 => ⟨S8192x8, .f32⟩
  | 37 => ⟨S8192x8, .f32⟩
  | 38 => ⟨S8192x8, .f32⟩
  | 39 => ⟨S8192x8, .f32⟩
  | 40 => ⟨S8192x8, .f32⟩
  | 41 => ⟨S8192x8, .f32⟩
  | 42 => ⟨S8192x8, .f32⟩
  | 43 => ⟨S8192x1, .f32⟩
  | 44 => ⟨S8192, .f32⟩
  | 45 => ⟨S64x128x1, .f32⟩
  | 46 => ⟨S64x128x1, .f32⟩
  | 47 => ⟨S64x128x1x256, .f32⟩
  | 48 => ⟨S64x128x256, .f32⟩
  | 49 => ⟨S8192x256, .f32⟩
  | 50 => ⟨S8192x512, .f32⟩
  | 51 => ⟨S1x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x8, .f32⟩
  | 58 => ⟨S1x8, .f32⟩
  | 59 => ⟨S8192x8, .f32⟩
  | 60 => ⟨S8192x8, .f32⟩
  | 61 => ⟨S_, .f32⟩
  | 62 => ⟨S8192x8, .f32⟩
  | 63 => ⟨S8192x8, .f32⟩
  | 64 => ⟨S8192x8, .f32⟩
  | 65 => ⟨S8192x8, .f32⟩
  | 66 => ⟨S8192x8, .i1⟩
  | 67 => ⟨S8192x8, .f32⟩
  | 68 => ⟨S8192x8, .f32⟩
  | 69 => ⟨S8192x8, .f32⟩
  | 70 => ⟨S8192x8, .f32⟩
  | 71 => ⟨S8192x8, .f32⟩
  | 72 => ⟨S8192x8, .f32⟩
  | 73 => ⟨S8192x8, .f32⟩
  | 74 => ⟨S8192x8, .f32⟩
  | 75 => ⟨S8192x1, .f32⟩
  | 76 => ⟨S8192, .f32⟩
  | 77 => ⟨S64x128x1, .f32⟩
  | 78 => ⟨S64x128x1, .f32⟩
  | 79 => ⟨S64x128x1x256, .f32⟩
  | 80 => ⟨S64x128x256, .f32⟩
  | 81 => ⟨S8192x256, .f32⟩
  | 82 => ⟨S8192x512, .f32⟩
  | 83 => ⟨S1x512, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S8192x8, .f32⟩
  | 90 => ⟨S1x8, .f32⟩
  | 91 => ⟨S8192x8, .f32⟩
  | 92 => ⟨S8192x8, .f32⟩
  | 93 => ⟨S_, .f32⟩
  | 94 => ⟨S8192x8, .f32⟩
  | 95 => ⟨S8192x8, .f32⟩
  | 96 => ⟨S8192x8, .f32⟩
  | 97 => ⟨S8192x8, .f32⟩
  | 98 => ⟨S8192x8, .i1⟩
  | 99 => ⟨S8192x8, .f32⟩
  | 100 => ⟨S8192x8, .f32⟩
  | 101 => ⟨S8192x8, .f32⟩
  | 102 => ⟨S8192x8, .f32⟩
  | 103 => ⟨S8192x8, .f32⟩
  | 104 => ⟨S8192x8, .f32⟩
  | 105 => ⟨S8192x8, .f32⟩
  | 106 => ⟨S8192x8, .f32⟩
  | 107 => ⟨S8192x1, .f32⟩
  | 108 => ⟨S8192, .f32⟩
  | 109 => ⟨S64x128x1, .f32⟩
  | 110 => ⟨S64x128x1, .f32⟩
  | 111 => ⟨S64x128x1x256, .f32⟩
  | 112 => ⟨S64x128x256, .f32⟩
  | 113 => ⟨S8192x256, .f32⟩
  | 114 => ⟨S8192x512, .f32⟩
  | 115 => ⟨S1x512, .f32⟩
  | 116 => ⟨S8192x512, .f32⟩
  | 117 => ⟨S8192x512, .f32⟩
  | 118 => ⟨S_, .f32⟩
  | 119 => ⟨S8192x512, .f32⟩
  | 120 => ⟨S8192x512, .f32⟩
  | 121 => ⟨S8192x8, .f32⟩
  | 122 => ⟨S1x8, .f32⟩
  | 123 => ⟨S8192x8, .f32⟩
  | 124 => ⟨S8192x8, .f32⟩
  | 125 => ⟨S_, .f32⟩
  | 126 => ⟨S8192x8, .f32⟩
  | 127 => ⟨S8192x8, .f32⟩
  | _ => ⟨S64x128x9x256, .f32⟩

abbrev hbmTy0_2 (i : Nat) : BufTy := match i % 128 with
  | 0 => ⟨S8192x8, .f32⟩
  | 1 => ⟨S8192x8, .f32⟩
  | 2 => ⟨S8192x8, .i1⟩
  | 3 => ⟨S8192x8, .f32⟩
  | 4 => ⟨S8192x8, .f32⟩
  | 5 => ⟨S8192x8, .f32⟩
  | 6 => ⟨S8192x8, .f32⟩
  | 7 => ⟨S8192x8, .f32⟩
  | 8 => ⟨S8192x8, .f32⟩
  | 9 => ⟨S8192x8, .f32⟩
  | 10 => ⟨S8192x8, .f32⟩
  | 11 => ⟨S8192x1, .f32⟩
  | 12 => ⟨S8192, .f32⟩
  | 13 => ⟨S64x128x1, .f32⟩
  | 14 => ⟨S64x128x1, .f32⟩
  | 15 => ⟨S64x128x1x256, .f32⟩
  | 16 => ⟨S64x128x256, .f32⟩
  | 17 => ⟨S8192x256, .f32⟩
  | 18 => ⟨S8192x512, .f32⟩
  | 19 => ⟨S1x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x8, .f32⟩
  | 26 => ⟨S1x8, .f32⟩
  | 27 => ⟨S8192x8, .f32⟩
  | 28 => ⟨S8192x8, .f32⟩
  | 29 => ⟨S_, .f32⟩
  | 30 => ⟨S8192x8, .f32⟩
  | 31 => ⟨S8192x8, .f32⟩
  | 32 => ⟨S8192x8, .f32⟩
  | 33 => ⟨S8192x8, .f32⟩
  | 34 => ⟨S8192x8, .i1⟩
  | 35 => ⟨S8192x8, .f32⟩
  | 36 => ⟨S8192x8, .f32⟩
  | 37 => ⟨S8192x8, .f32⟩
  | 38 => ⟨S8192x8, .f32⟩
  | 39 => ⟨S8192x8, .f32⟩
  | 40 => ⟨S8192x8, .f32⟩
  | 41 => ⟨S8192x8, .f32⟩
  | 42 => ⟨S8192x8, .f32⟩
  | 43 => ⟨S8192x1, .f32⟩
  | 44 => ⟨S8192, .f32⟩
  | 45 => ⟨S64x128x1, .f32⟩
  | 46 => ⟨S64x128x1, .f32⟩
  | 47 => ⟨S64x128x4, .f32⟩
  | _ => ⟨S64x128x9x256, .f32⟩

abbrev hbmTy (i : Nat) : BufTy := match i / 128 with
  | 0 => hbmTy0_0 i
  | 1 => hbmTy0_1 i
  | 2 => hbmTy0_2 i
  | _ => ⟨S64x128x9x256, .f32⟩

abbrev bufTy : (tb : Table) → Fin (tcTables nBuf tb) → BufTy
  | .hbm, ⟨i, _⟩ => hbmTy i
  | _, _ => ⟨S64x128x9x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call2_cst : Ref sig .tc := ⟨.hbm, 54, rfl⟩
abbrev main_call2_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call3_cst : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_call4_cst : Ref sig .tc := ⟨.hbm, 86, rfl⟩
abbrev main_call4_v0 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call5_cst : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_v6 : Ref sig .tc := ⟨.hbm, 100, rfl⟩
abbrev main_call5_v7 : Ref sig .tc := ⟨.hbm, 101, rfl⟩
abbrev main_call5_v8 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_call6_cst : Ref sig .tc := ⟨.hbm, 118, rfl⟩
abbrev main_call6_v0 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_call7_cst : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_call7_v5 : Ref sig .tc := ⟨.hbm, 131, rfl⟩
abbrev main_call7_v6 : Ref sig .tc := ⟨.hbm, 132, rfl⟩
abbrev main_call7_v7 : Ref sig .tc := ⟨.hbm, 133, rfl⟩
abbrev main_call7_v8 : Ref sig .tc := ⟨.hbm, 134, rfl⟩
abbrev main_call7_v9 : Ref sig .tc := ⟨.hbm, 135, rfl⟩
abbrev main_call7_v10 : Ref sig .tc := ⟨.hbm, 136, rfl⟩
abbrev main_call7_v11 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_call8_cst : Ref sig .tc := ⟨.hbm, 150, rfl⟩
abbrev main_call8_v0 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_call9_cst : Ref sig .tc := ⟨.hbm, 157, rfl⟩
abbrev main_call9_v0 : Ref sig .tc := ⟨.hbm, 158, rfl⟩
abbrev main_call9_v1 : Ref sig .tc := ⟨.hbm, 159, rfl⟩
abbrev main_call9_v2 : Ref sig .tc := ⟨.hbm, 160, rfl⟩
abbrev main_call9_v3 : Ref sig .tc := ⟨.hbm, 161, rfl⟩
abbrev main_call9_v4 : Ref sig .tc := ⟨.hbm, 162, rfl⟩
abbrev main_call9_v5 : Ref sig .tc := ⟨.hbm, 163, rfl⟩
abbrev main_call9_v6 : Ref sig .tc := ⟨.hbm, 164, rfl⟩
abbrev main_call9_v7 : Ref sig .tc := ⟨.hbm, 165, rfl⟩
abbrev main_call9_v8 : Ref sig .tc := ⟨.hbm, 166, rfl⟩
abbrev main_call9_v9 : Ref sig .tc := ⟨.hbm, 167, rfl⟩
abbrev main_call9_v10 : Ref sig .tc := ⟨.hbm, 168, rfl⟩
abbrev main_call9_v11 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_call10_cst : Ref sig .tc := ⟨.hbm, 182, rfl⟩
abbrev main_call10_v0 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_call11_cst : Ref sig .tc := ⟨.hbm, 189, rfl⟩
abbrev main_call11_v0 : Ref sig .tc := ⟨.hbm, 190, rfl⟩
abbrev main_call11_v1 : Ref sig .tc := ⟨.hbm, 191, rfl⟩
abbrev main_call11_v2 : Ref sig .tc := ⟨.hbm, 192, rfl⟩
abbrev main_call11_v3 : Ref sig .tc := ⟨.hbm, 193, rfl⟩
abbrev main_call11_v4 : Ref sig .tc := ⟨.hbm, 194, rfl⟩
abbrev main_call11_v5 : Ref sig .tc := ⟨.hbm, 195, rfl⟩
abbrev main_call11_v6 : Ref sig .tc := ⟨.hbm, 196, rfl⟩
abbrev main_call11_v7 : Ref sig .tc := ⟨.hbm, 197, rfl⟩
abbrev main_call11_v8 : Ref sig .tc := ⟨.hbm, 198, rfl⟩
abbrev main_call11_v9 : Ref sig .tc := ⟨.hbm, 199, rfl⟩
abbrev main_call11_v10 : Ref sig .tc := ⟨.hbm, 200, rfl⟩
abbrev main_call11_v11 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_call12_cst : Ref sig .tc := ⟨.hbm, 214, rfl⟩
abbrev main_call12_v0 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_call13_cst : Ref sig .tc := ⟨.hbm, 221, rfl⟩
abbrev main_call13_v0 : Ref sig .tc := ⟨.hbm, 222, rfl⟩
abbrev main_call13_v1 : Ref sig .tc := ⟨.hbm, 223, rfl⟩
abbrev main_call13_v2 : Ref sig .tc := ⟨.hbm, 224, rfl⟩
abbrev main_call13_v3 : Ref sig .tc := ⟨.hbm, 225, rfl⟩
abbrev main_call13_v4 : Ref sig .tc := ⟨.hbm, 226, rfl⟩
abbrev main_call13_v5 : Ref sig .tc := ⟨.hbm, 227, rfl⟩
abbrev main_call13_v6 : Ref sig .tc := ⟨.hbm, 228, rfl⟩
abbrev main_call13_v7 : Ref sig .tc := ⟨.hbm, 229, rfl⟩
abbrev main_call13_v8 : Ref sig .tc := ⟨.hbm, 230, rfl⟩
abbrev main_call13_v9 : Ref sig .tc := ⟨.hbm, 231, rfl⟩
abbrev main_call13_v10 : Ref sig .tc := ⟨.hbm, 232, rfl⟩
abbrev main_call13_v11 : Ref sig .tc := ⟨.hbm, 233, rfl⟩
abbrev main_v118 : Ref sig .tc := ⟨.hbm, 234, rfl⟩
abbrev main_v119 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_call14_cst : Ref sig .tc := ⟨.hbm, 246, rfl⟩
abbrev main_call14_v0 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_call15_cst : Ref sig .tc := ⟨.hbm, 253, rfl⟩
abbrev main_call15_v0 : Ref sig .tc := ⟨.hbm, 254, rfl⟩
abbrev main_call15_v1 : Ref sig .tc := ⟨.hbm, 255, rfl⟩
abbrev main_call15_v2 : Ref sig .tc := ⟨.hbm, 256, rfl⟩
abbrev main_call15_v3 : Ref sig .tc := ⟨.hbm, 257, rfl⟩
abbrev main_call15_v4 : Ref sig .tc := ⟨.hbm, 258, rfl⟩
abbrev main_call15_v5 : Ref sig .tc := ⟨.hbm, 259, rfl⟩
abbrev main_call15_v6 : Ref sig .tc := ⟨.hbm, 260, rfl⟩
abbrev main_call15_v7 : Ref sig .tc := ⟨.hbm, 261, rfl⟩
abbrev main_call15_v8 : Ref sig .tc := ⟨.hbm, 262, rfl⟩
abbrev main_call15_v9 : Ref sig .tc := ⟨.hbm, 263, rfl⟩
abbrev main_call15_v10 : Ref sig .tc := ⟨.hbm, 264, rfl⟩
abbrev main_call15_v11 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_call16_cst : Ref sig .tc := ⟨.hbm, 278, rfl⟩
abbrev main_call16_v0 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_call17_cst : Ref sig .tc := ⟨.hbm, 285, rfl⟩
abbrev main_call17_v0 : Ref sig .tc := ⟨.hbm, 286, rfl⟩
abbrev main_call17_v1 : Ref sig .tc := ⟨.hbm, 287, rfl⟩
abbrev main_call17_v2 : Ref sig .tc := ⟨.hbm, 288, rfl⟩
abbrev main_call17_v3 : Ref sig .tc := ⟨.hbm, 289, rfl⟩
abbrev main_call17_v4 : Ref sig .tc := ⟨.hbm, 290, rfl⟩
abbrev main_call17_v5 : Ref sig .tc := ⟨.hbm, 291, rfl⟩
abbrev main_call17_v6 : Ref sig .tc := ⟨.hbm, 292, rfl⟩
abbrev main_call17_v7 : Ref sig .tc := ⟨.hbm, 293, rfl⟩
abbrev main_call17_v8 : Ref sig .tc := ⟨.hbm, 294, rfl⟩
abbrev main_call17_v9 : Ref sig .tc := ⟨.hbm, 295, rfl⟩
abbrev main_call17_v10 : Ref sig .tc := ⟨.hbm, 296, rfl⟩
abbrev main_call17_v11 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩

abbrev nD : Nat := 1
abbrev τ : Topo := Topo.v7x

variable {F : FTy → Type} [FloatOps F]

class Facts₀ : Prop where
  slices_S64x128x9x256_S64x128x1x256_0_0_0_0 : S64x128x9x256.Slices ![0, 0, 0, 0] S64x128x1x256
  shapeCasts_S64x128x1x256_S64x128x256 : S64x128x1x256.ShapeCasts S64x128x256
  shapeCasts_S64x128x256_S8192x256 : S64x128x256.ShapeCasts S8192x256
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  reducesTo_S8192x8_S8192_d1 : S8192x8.ReducesTo [1] S8192
  h_S_ : 0 < S_.numel
  shapeCasts_S8192_S64x128x1 : S8192.ShapeCasts S64x128x1
  shapeCasts_S64x128_S64x128x1 : S64x128.ShapeCasts S64x128x1
  bcast_S_S64x128x1 : S_.BroadcastsInDim S64x128x1 (![] : Fin 0 → Fin S64x128x1.rank)
  bcast_S1_S1x1x1_2 : S1.BroadcastsInDim S1x1x1 (![2] : Fin 1 → Fin S1x1x1.rank)
  bcast_S1x1x1_S64x128x1_0_1_2 : S1x1x1.BroadcastsInDim S64x128x1 (![0, 1, 2] : Fin 3 → Fin S64x128x1.rank)
  slices_S64x128x9x256_S64x128x1x256_0_0_1_0 : S64x128x9x256.Slices ![0, 0, 1, 0] S64x128x1x256
  slices_S8192x8_S8192x1_0_0 : S8192x8.Slices ![0, 0] S8192x1
  shapeCasts_S8192x1_S8192 : S8192x1.ShapeCasts S8192
  slices_S64x128x9x256_S64x128x1x256_0_0_2_0 : S64x128x9x256.Slices ![0, 0, 2, 0] S64x128x1x256
  slices_S8192x8_S8192x1_0_1 : S8192x8.Slices ![0, 1] S8192x1
  slices_S64x128x9x256_S64x128x1x256_0_0_3_0 : S64x128x9x256.Slices ![0, 0, 3, 0] S64x128x1x256
  slices_S8192x8_S8192x1_0_2 : S8192x8.Slices ![0, 2] S8192x1
  slices_S64x128x9x256_S64x128x1x256_0_0_4_0 : S64x128x9x256.Slices ![0, 0, 4, 0] S64x128x1x256
  slices_S8192x8_S8192x1_0_3 : S8192x8.Slices ![0, 3] S8192x1
  slices_S64x128x9x256_S64x128x1x256_0_0_5_0 : S64x128x9x256.Slices ![0, 0, 5, 0] S64x128x1x256
  slices_S8192x8_S8192x1_0_4 : S8192x8.Slices ![0, 4] S8192x1
  slices_S64x128x9x256_S64x128x1x256_0_0_6_0 : S64x128x9x256.Slices ![0, 0, 6, 0] S64x128x1x256
  slices_S8192x8_S8192x1_0_5 : S8192x8.Slices ![0, 5] S8192x1
  slices_S64x128x9x256_S64x128x1x256_0_0_7_0 : S64x128x9x256.Slices ![0, 0, 7, 0] S64x128x1x256
  slices_S8192x8_S8192x1_0_6 : S8192x8.Slices ![0, 6] S8192x1
  slices_S64x128x9x256_S64x128x1x256_0_0_8_0 : S64x128x9x256.Slices ![0, 0, 8, 0] S64x128x1x256
  slices_S8192x8_S8192x1_0_7 : S8192x8.Slices ![0, 7] S8192x1
  concatenates_S64x128x1_S64x128x1_S64x128x1_S64x128x1_S64x128x4_d2 : Shape.Concatenates [S64x128x1, S64x128x1, S64x128x1, S64x128x1] S64x128x4 2
  dot_S8192x256_S256x512_S8192x512_1_0_0_1_n_n_wf : DotDims.WF S8192x256 S256x512 S8192x512 [1] [0] [0] [1] [] []
  dot_S8192x512_S512x8_S8192x8_1_0_0_1_n_n_wf : DotDims.WF S8192x512 S512x8 S8192x8 [1] [0] [0] [1] [] []

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x8_S8192x8_1_0_0_1_n_n : DotDims S8192x512 S512x8 S8192x8 where
  lhsContracting := [1]
  rhsContracting := [0]
  lhsNonContracting := [0]
  rhsNonContracting := [1]
  lhsBatch := []
  rhsBatch := []
  wf := dot_S8192x512_S512x8_S8192x8_1_0_0_1_n_n_wf

class Facts : Prop extends Facts₀ where

variable [Facts]
-- ==== Proof.FrameK.lean ====
/-
  The frame of the program: every weakly fair execution of @main terminates without a fault and leaves the eight
  argument arrays as launched.  @main is six host operations (two transposes, two roundings to bf16, two reshapes), one
  pipelined region of 16 grid points, and four host operations (two reshapes, a broadcast, a concatenation).  At each
  grid point the body reads its six input blocks, computes, and overwrites its output block by two column stores that
  tile it; nothing else is touched.  The proof data records, per point, each input buffer at its block and the output
  buffer at the canonical form of the two stores.
-/
import proofs.«141243_g13606456393761_cont_week2b_929_17_alg».proof.Proof.Gen.Kernel.Launch
import proofs.«141243_g13606456393761_cont_week2b_929_17_alg».proof.Proof.Gen.Kernel.Skeleton
import proofs.«141243_g13606456393761_cont_week2b_929_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the six host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result buffer, which is none of the pipeline's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No argument array is staged by a window, so each is read off the second clause of the run's post and then
    through the two "nothing writes it" facts above. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

/-! ## The body's accesses -/

abbrev rW1 : Rect S256x512 := Rect.unit (s := S256x512) ![0, 0] S256x512.size inb_S256x512_S256x512_0_0
abbrev rB1 : Rect S1x512 := Rect.unit (s := S1x512) ![0, 0] S1x512.size inb_S1x512_S1x512_0_0
abbrev rW2 : Rect S512x8 := Rect.unit (s := S512x8) ![0, 0] S512x8.size inb_S512x8_S512x8_0_0
abbrev rB2 : Rect S1x8 := Rect.unit (s := S1x8) ![0, 0] S1x8.size inb_S1x8_S1x8_0_0
abbrev rFwd : Rect S4x1x128x256 := Rect.unit (s := S4x1x128x256) ![0, 0, 0, 0] S4x1x128x256.size inb_S4x1x128x256_S4x1x128x256_0_0_0_0
abbrev rBwd1 : Rect S4x9x128x256 := Rect.unit (s := S4x9x128x256) ![0, 1, 0, 0] S4x1x128x256.size inb_S4x9x128x256_S4x1x128x256_0_1_0_0
abbrev rBwd2 : Rect S4x9x128x256 := Rect.unit (s := S4x9x128x256) ![0, 2, 0, 0] S4x1x128x256.size inb_S4x9x128x256_S4x1x128x256_0_2_0_0
abbrev rBwd3 : Rect S4x9x128x256 := Rect.unit (s := S4x9x128x256) ![0, 3, 0, 0] S4x1x128x256.size inb_S4x9x128x256_S4x1x128x256_0_3_0_0
abbrev rBwd4 : Rect S4x9x128x256 := Rect.unit (s := S4x9x128x256) ![0, 4, 0, 0] S4x1x128x256.size inb_S4x9x128x256_S4x1x128x256_0_4_0_0
abbrev rBwd5 : Rect S4x9x128x256 := Rect.unit (s := S4x9x128x256) ![0, 5, 0, 0] S4x1x128x256.size inb_S4x9x128x256_S4x1x128x256_0_5_0_0
abbrev rBwd6 : Rect S4x9x128x256 := Rect.unit (s := S4x9x128x256) ![0, 6, 0, 0] S4x1x128x256.size inb_S4x9x128x256_S4x1x128x256_0_6_0_0
abbrev rBwd7 : Rect S4x9x128x256 := Rect.unit (s := S4x9x128x256) ![0, 7, 0, 0] S4x1x128x256.size inb_S4x9x128x256_S4x1x128x256_0_7_0_0
abbrev rBwd8 : Rect S4x9x128x256 := Rect.unit (s := S4x9x128x256) ![0, 8, 0, 0] S4x1x128x256.size inb_S4x9x128x256_S4x1x128x256_0_8_0_0
abbrev rOutIn : Rect S4x128x2 := Rect.unit (s := S4x128x2) ![0, 0, 0] S4x128x1.size inb_S4x128x2_S4x128x1_0_0_0
abbrev rOutOut : Rect S4x128x2 := Rect.unit (s := S4x128x2) ![0, 0, 1] S4x128x1.size inb_S4x128x2_S4x128x1_0_0_1

/-! ## What the body stores -/

/-- The value of the first store (column 0: the flows into a state, summed over the eight actions), as the
    body's arithmetic applied to the loaded blocks. -/
def storeIn (x0 : Vec F S4x1x128x256 .f32) (x1 : Vec F S4x9x128x256 .f32) (x2 : Vec F S256x512 .bf16) (x3 : Vec F S1x512 .f32)
    (x4 : Vec F S512x8 .bf16) (x5 : Vec F S1x8 .f32) : FVec F S4x128x1 .f32 :=
  k0_pay1
    (k0_pay14 (k0_pay3 (View.ld x2 rW1)) (k0_pay4 (View.ld x3 rB1)) (k0_pay5 (View.ld x4 rW2)) (k0_pay6 (View.ld x5 rB2))
      (k0_pay12 (k0_pay3 (View.ld x2 rW1)) (k0_pay4 (View.ld x3 rB1)) (k0_pay5 (View.ld x4 rW2)) (k0_pay6 (View.ld x5 rB2))
        (k0_pay11 (k0_pay3 (View.ld x2 rW1)) (k0_pay4 (View.ld x3 rB1)) (k0_pay5 (View.ld x4 rW2)) (k0_pay6 (View.ld x5 rB2))
          (k0_pay9 (k0_pay3 (View.ld x2 rW1)) (k0_pay4 (View.ld x3 rB1)) (k0_pay5 (View.ld x4 rW2)) (k0_pay6 (View.ld x5 rB2))
            (k0_pay8 (View.ld x2 rW1) (View.ld x1 rBwd1)) (View.ld x1 rBwd2))
          (k0_pay10 (View.ld x1 rBwd3)) (View.ld x1 rBwd4))
        (View.ld x1 rBwd5))
      (k0_pay13 (k0_pay3 (View.ld x2 rW1)) (k0_pay4 (View.ld x3 rB1)) (k0_pay5 (View.ld x4 rW2)) (k0_pay6 (View.ld x5 rB2)) (View.ld x1 rBwd6))
      (View.ld x1 rBwd7))
    (k0_pay16 (k0_pay3 (View.ld x2 rW1)) (k0_pay4 (View.ld x3 rB1)) (k0_pay5 (View.ld x4 rW2)) (k0_pay6 (View.ld x5 rB2)) (View.ld x1 rBwd8))
    (k0_pay17 (k0_pay3 (View.ld x2 rW1)) (k0_pay4 (View.ld x3 rB1)) (k0_pay5 (View.ld x4 rW2)) (k0_pay6 (View.ld x5 rB2)) (View.ld x1 rBwd8))
    (k0_pay18 (F := F))

/-- The value of the second store (column 1: the flows out of a state, summed over the eight actions). -/
def storeOut (x0 : Vec F S4x1x128x256 .f32) (x2 : Vec F S256x512 .bf16) (x3 : Vec F S1x512 .f32)
    (x4 : Vec F S512x8 .bf16) (x5 : Vec F S1x8 .f32) : FVec F S4x128x1 .f32 :=
  k0_pay2 (k0_pay7 (View.ld x2 rW1) (View.ld x3 rB1) (View.ld x4 rW2) (View.ld x5 rB2) (View.ld x0 rFwd))

/-- The output staging buffer after the body: its two column stores as pieces, last first. -/
def out0_6 (x0 : Vec F S4x1x128x256 .f32) (x1 : Vec F S4x9x128x256 .f32) (x2 : Vec F S256x512 .bf16) (x3 : Vec F S1x512 .f32)
    (x4 : Vec F S512x8 .bf16) (x5 : Vec F S1x8 .f32) : Vec F S4x128x2 .f32 :=
  View.canon [⟨rOutOut, storeOut x0 x2 x3 x4 x5⟩, ⟨rOutIn, storeIn x0 x1 x2 x3 x4 x5⟩]

/-- The two column rectangles tile the block, so they cover it. -/
theorem cover0_6 (p0 p1 : Vec F S4x128x1 .f32) (y : S4x128x2.Idx) :
    ∃ pc ∈ ([⟨rOutOut, p0⟩, ⟨rOutIn, p1⟩] : List (View.Piece (Elt F) S4x128x2 .f32)), y ∈ pc.1.set :=
  View.cover_of_tiled [⟨rOutOut, p0⟩, ⟨rOutIn, p1⟩] S4x128x1.size (by rfl) y

/-! ## The body's triple -/

set_option maxHeartbeats 4000000 in
/-- The body on whole staging memrefs, the inputs' at contents `xW` and the output's at anything, runs to the
    continuation holding the inputs' unchanged and the output's at `out0_6` of the inputs'. -/
theorem sound_kernel (c : Dev nD) (E : Set ℕ) (i : grid0.Coords) (arg1 : Memref sig .tc .vmem S4x1x128x256 .f32) (harg1 : arg1.IsWhole) (arg2 : Memref sig .tc .vmem S4x9x128x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x8 .bf16) (harg5 : arg5.IsWhole) (arg6 : Memref sig .tc .vmem S1x8 .f32) (harg6 : arg6.IsWhole) (arg7 : Memref sig .tc .vmem S4x128x2 .f32) (harg7 : arg7.IsWhole)
    (x0 : Vec F S4x1x128x256 .f32) (x1 : Vec F S4x9x128x256 .f32) (x2 : Vec F S256x512 .bf16) (x3 : Vec F S1x512 .f32) (x4 : Vec F S512x8 .bf16) (x5 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__flow_body i arg1 harg1 arg2 harg2 arg3 harg3 arg4 harg4 arg5 harg5 arg6 harg6 arg7 harg7) K := by
  simp only [cc0__flow_body_eq_skeleton]; unfold cc0__flow_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _)

/-! ## The pipeline's proof data -/

/-- The proof data of the pipeline on core `c`: the arrays as the region finds them; after the body at point `t`
    each input buffer at its block and the output buffer at `out0_6` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.FrameKI.lean ====
/-
  The frame of the program: every weakly fair execution of @main terminates without a fault and leaves the eight
  argument arrays as launched.  @main is six host operations (two transposes, two roundings to bf16, two reshapes), one
  pipelined region of 16 grid points, and four host operations (two reshapes, a broadcast, a concatenation).  At each
  grid point the body reads its six input blocks, computes, and overwrites its output block by two column stores that
  tile it; nothing else is touched.  The proof data records, per point, each input buffer at its block and the output
  buffer at the canonical form of the two stores.
-/
import proofs.«141243_g13606456393761_cont_week2b_929_17_alg».proof.Proof.Gen.KernelIdeal.Launch
import proofs.«141243_g13606456393761_cont_week2b_929_17_alg».proof.Proof.Gen.KernelIdeal.Skeleton
import proofs.«141243_g13606456393761_cont_week2b_929_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the six host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result buffer, which is none of the pipeline's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No argument array is staged by a window, so each is read off the second clause of the run's post and then
    through the two "nothing writes it" facts above. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

/-! ## The body's accesses -/

abbrev rW1 : Rect S256x512 := Rect.unit (s := S256x512) ![0, 0] S256x512.size inb_S256x512_S256x512_0_0
abbrev rB1 : Rect S1x512 := Rect.unit (s := S1x512) ![0, 0] S1x512.size inb_S1x512_S1x512_0_0
abbrev rW2 : Rect S512x8 := Rect.unit (s := S512x8) ![0, 0] S512x8.size inb_S512x8_S512x8_0_0
abbrev rB2 : Rect S1x8 := Rect.unit (s := S1x8) ![0, 0] S1x8.size inb_S1x8_S1x8_0_0
abbrev rFwd : Rect S4x1x128x256 := Rect.unit (s := S4x1x128x256) ![0, 0, 0, 0] S4x1x128x256.size inb_S4x1x128x256_S4x1x128x256_0_0_0_0
abbrev rBwd1 : Rect S4x9x128x256 := Rect.unit (s := S4x9x128x256) ![0, 1, 0, 0] S4x1x128x256.size inb_S4x9x128x256_S4x1x128x256_0_1_0_0
abbrev rBwd2 : Rect S4x9x128x256 := Rect.unit (s := S4x9x128x256) ![0, 2, 0, 0] S4x1x128x256.size inb_S4x9x128x256_S4x1x128x256_0_2_0_0
abbrev rBwd3 : Rect S4x9x128x256 := Rect.unit (s := S4x9x128x256) ![0, 3, 0, 0] S4x1x128x256.size inb_S4x9x128x256_S4x1x128x256_0_3_0_0
abbrev rBwd4 : Rect S4x9x128x256 := Rect.unit (s := S4x9x128x256) ![0, 4, 0, 0] S4x1x128x256.size inb_S4x9x128x256_S4x1x128x256_0_4_0_0
abbrev rBwd5 : Rect S4x9x128x256 := Rect.unit (s := S4x9x128x256) ![0, 5, 0, 0] S4x1x128x256.size inb_S4x9x128x256_S4x1x128x256_0_5_0_0
abbrev rBwd6 : Rect S4x9x128x256 := Rect.unit (s := S4x9x128x256) ![0, 6, 0, 0] S4x1x128x256.size inb_S4x9x128x256_S4x1x128x256_0_6_0_0
abbrev rBwd7 : Rect S4x9x128x256 := Rect.unit (s := S4x9x128x256) ![0, 7, 0, 0] S4x1x128x256.size inb_S4x9x128x256_S4x1x128x256_0_7_0_0
abbrev rBwd8 : Rect S4x9x128x256 := Rect.unit (s := S4x9x128x256) ![0, 8, 0, 0] S4x1x128x256.size inb_S4x9x128x256_S4x1x128x256_0_8_0_0
abbrev rOutIn : Rect S4x128x2 := Rect.unit (s := S4x128x2) ![0, 0, 0] S4x128x1.size inb_S4x128x2_S4x128x1_0_0_0
abbrev rOutOut : Rect S4x128x2 := Rect.unit (s := S4x128x2) ![0, 0, 1] S4x128x1.size inb_S4x128x2_S4x128x1_0_0_1

/-! ## What the body stores -/

/-- The value of the first store (column 0: the flows into a state, summed over the eight actions), as the
    body's arithmetic applied to the loaded blocks. -/
def storeIn (x0 : Vec F S4x1x128x256 .f32) (x1 : Vec F S4x9x128x256 .f32) (x2 : Vec F S256x512 .bf16) (x3 : Vec F S1x512 .f32)
    (x4 : Vec F S512x8 .bf16) (x5 : Vec F S1x8 .f32) : FVec F S4x128x1 .f32 :=
  k0_pay1
    (k0_pay14 (k0_pay3 (View.ld x2 rW1)) (k0_pay4 (View.ld x3 rB1)) (k0_pay5 (View.ld x4 rW2)) (k0_pay6 (View.ld x5 rB2))
      (k0_pay12 (k0_pay3 (View.ld x2 rW1)) (k0_pay4 (View.ld x3 rB1)) (k0_pay5 (View.ld x4 rW2)) (k0_pay6 (View.ld x5 rB2))
        (k0_pay11 (k0_pay3 (View.ld x2 rW1)) (k0_pay4 (View.ld x3 rB1)) (k0_pay5 (View.ld x4 rW2)) (k0_pay6 (View.ld x5 rB2))
          (k0_pay9 (k0_pay3 (View.ld x2 rW1)) (k0_pay4 (View.ld x3 rB1)) (k0_pay5 (View.ld x4 rW2)) (k0_pay6 (View.ld x5 rB2))
            (k0_pay8 (View.ld x2 rW1) (View.ld x1 rBwd1)) (View.ld x1 rBwd2))
          (k0_pay10 (View.ld x1 rBwd3)) (View.ld x1 rBwd4))
        (View.ld x1 rBwd5))
      (k0_pay13 (k0_pay3 (View.ld x2 rW1)) (k0_pay4 (View.ld x3 rB1)) (k0_pay5 (View.ld x4 rW2)) (k0_pay6 (View.ld x5 rB2)) (View.ld x1 rBwd6))
      (View.ld x1 rBwd7))
    (k0_pay16 (k0_pay3 (View.ld x2 rW1)) (k0_pay4 (View.ld x3 rB1)) (k0_pay5 (View.ld x4 rW2)) (k0_pay6 (View.ld x5 rB2)) (View.ld x1 rBwd8))
    (k0_pay17 (k0_pay3 (View.ld x2 rW1)) (k0_pay4 (View.ld x3 rB1)) (k0_pay5 (View.ld x4 rW2)) (k0_pay6 (View.ld x5 rB2)) (View.ld x1 rBwd8))
    (k0_pay18 (F := F))

/-- The value of the second store (column 1: the flows out of a state, summed over the eight actions). -/
def storeOut (x0 : Vec F S4x1x128x256 .f32) (x2 : Vec F S256x512 .bf16) (x3 : Vec F S1x512 .f32)
    (x4 : Vec F S512x8 .bf16) (x5 : Vec F S1x8 .f32) : FVec F S4x128x1 .f32 :=
  k0_pay2 (k0_pay7 (View.ld x2 rW1) (View.ld x3 rB1) (View.ld x4 rW2) (View.ld x5 rB2) (View.ld x0 rFwd))

/-- The output staging buffer after the body: its two column stores as pieces, last first. -/
def out0_6 (x0 : Vec F S4x1x128x256 .f32) (x1 : Vec F S4x9x128x256 .f32) (x2 : Vec F S256x512 .bf16) (x3 : Vec F S1x512 .f32)
    (x4 : Vec F S512x8 .bf16) (x5 : Vec F S1x8 .f32) : Vec F S4x128x2 .f32 :=
  View.canon [⟨rOutOut, storeOut x0 x2 x3 x4 x5⟩, ⟨rOutIn, storeIn x0 x1 x2 x3 x4 x5⟩]

/-- The two column rectangles tile the block, so they cover it. -/
theorem cover0_6 (p0 p1 : Vec F S4x128x1 .f32) (y : S4x128x2.Idx) :
    ∃ pc ∈ ([⟨rOutOut, p0⟩, ⟨rOutIn, p1⟩] : List (View.Piece (Elt F) S4x128x2 .f32)), y ∈ pc.1.set :=
  View.cover_of_tiled [⟨rOutOut, p0⟩, ⟨rOutIn, p1⟩] S4x128x1.size (by rfl) y

/-! ## The body's triple -/

set_option maxHeartbeats 4000000 in
/-- The body on whole staging memrefs, the inputs' at contents `xW` and the output's at anything, runs to the
    continuation holding the inputs' unchanged and the output's at `out0_6` of the inputs'. -/
theorem sound_kernel (c : Dev nD) (E : Set ℕ) (i : grid0.Coords) (arg1 : Memref sig .tc .vmem S4x1x128x256 .f32) (harg1 : arg1.IsWhole) (arg2 : Memref sig .tc .vmem S4x9x128x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x8 .bf16) (harg5 : arg5.IsWhole) (arg6 : Memref sig .tc .vmem S1x8 .f32) (harg6 : arg6.IsWhole) (arg7 : Memref sig .tc .vmem S4x128x2 .f32) (harg7 : arg7.IsWhole)
    (x0 : Vec F S4x1x128x256 .f32) (x1 : Vec F S4x9x128x256 .f32) (x2 : Vec F S256x512 .bf16) (x3 : Vec F S1x512 .f32) (x4 : Vec F S512x8 .bf16) (x5 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__flow_body i arg1 harg1 arg2 harg2 arg3 harg3 arg4 harg4 arg5 harg5 arg6 harg6 arg7 harg7) K := by
  simp only [cc0__flow_body_eq_skeleton]; unfold cc0__flow_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _)

/-! ## The pipeline's proof data -/

/-- The proof data of the pipeline on core `c`: the arrays as the region finds them; after the body at point `t`
    each input buffer at its block and the output buffer at `out0_6` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.KBody.lean ====
/-
  The two stored values of the body, restated over four vector-level functions: the 512 × 256 matrix of a block's
  tokens (`tokmat`), the hidden layer (`hidv`), the logits (`zvec`) and the soft-plus (`spv`).  The flow out is the
  lane sum of the soft-plus of the forward token's eight logits; the flow in adds, over the eight actions in order,
  the soft-plus of logit `a` of backward token `a + 1`.
-/
import proofs.«141243_g13606456393761_cont_week2b_929_17_alg».proof.Proof.FrameKI
import Idealize.ShloMosaic.Lib.ValueIdx
import Idealize.ShloMosaic.Lib.Pipeline.Value
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.ValueIdx

/-- The tokens of a block (four batches of 128 positions), one per row. -/
def tokmat (v : Vec Ideal S4x1x128x256 .f32) : FVec Ideal S512x256 .f32 :=
  shapeCast S512x256 (shapeCast S4x128x256 v shapeCasts_S4x1x128x256_S4x128x256) shapeCasts_S4x128x256_S512x256

/-- The hidden layer of every row: the product with the first weight matrix, plus the bias row, clipped at zero. -/
def hidv (X : FVec Ideal S512x256 .f32) (w1 : FVec Ideal S256x512 .bf16) (b1 : FVec Ideal S1x512 .f32) : FVec Ideal S512x512 .f32 :=
  maximumf (addf (matmul dot_S512x256_S256x512_S512x512_1_0_0_1_n_n none (truncf .bf16 X bitsLt_bf16_f32) w1 (constant (F := Ideal) S512x512 .f32 0x00000000#32))
    (broadcastTo S512x512 b1 broadcasts_S1x512_S512x512)) (broadcast S512x512 (Scalar.ofBits (F := Ideal) .f32 0x00000000#32))

/-- The eight logits of every row. -/
def zvec (H : FVec Ideal S512x512 .f32) (w2 : FVec Ideal S512x8 .bf16) (b2 : FVec Ideal S1x8 .f32) : FVec Ideal S512x8 .f32 :=
  addf (matmul dot_S512x512_S512x8_S512x8_1_0_0_1_n_n none (truncf .bf16 H bitsLt_bf16_f32) w2 (constant (F := Ideal) S512x8 .f32 0x00000000#32))
    (broadcastTo S512x8 b2 broadcasts_S1x8_S512x8)

/-- The soft-plus of every entry: `max z 0 + log1p (exp (0 − |z|))`. -/
def spv {S : Shape} (z : FVec Ideal S .f32) : FVec Ideal S .f32 :=
  addf (maximumf z (broadcast S (Scalar.ofBits (F := Ideal) .f32 0x00000000#32)))
    (log1p (exp (subf (broadcast S (Scalar.ofBits (F := Ideal) .f32 0x00000000#32)) (absf z))))

/-- The second store's value: the lane sum of the soft-plus of the forward token's logits. -/
theorem storeOut_eq (x0 : Vec Ideal S4x1x128x256 .f32) (x2 : Vec Ideal S256x512 .bf16) (x3 : Vec Ideal S1x512 .f32)
    (x4 : Vec Ideal S512x8 .bf16) (x5 : Vec Ideal S1x8 .f32) :
    storeOut (F := Ideal) x0 x2 x3 x4 x5 = shapeCast S4x128x1 (shapeCast S512x1 (multiReduction .add [1] S512
      (spv (zvec (hidv (tokmat (View.ld x0 rFwd)) (k0_pay3 (View.ld x2 rW1)) (k0_pay4 (View.ld x3 rB1))) (k0_pay5 (View.ld x4 rW2)) (k0_pay6 (View.ld x5 rB2))))
      0x00000000#32 reduces_S512x8_S512 (.inl rfl) rfl) shapeCasts_S512_S512x1) shapeCasts_S512x1_S4x128x1 := rfl

/-- The first store's value: the eight soft-plus terms, one per action, added in order. -/
theorem storeIn_eq (x0 : Vec Ideal S4x1x128x256 .f32) (x1 : Vec Ideal S4x9x128x256 .f32) (x2 : Vec Ideal S256x512 .bf16) (x3 : Vec Ideal S1x512 .f32)
    (x4 : Vec Ideal S512x8 .bf16) (x5 : Vec Ideal S1x8 .f32) :
    storeIn (F := Ideal) x0 x1 x2 x3 x4 x5 = shapeCast S4x128x1
      (addf (addf (addf (addf (addf (addf (addf (spv (extractStridedSlice S512x1 ![0, 0] (zvec (hidv (tokmat (View.ld x1 rBwd1)) (k0_pay3 (View.ld x2 rW1)) (k0_pay4 (View.ld x3 rB1))) (k0_pay5 (View.ld x4 rW2)) (k0_pay6 (View.ld x5 rB2))) slices_S512x8_o0_0_S512x1)) (spv (extractStridedSlice S512x1 ![0, 1] (zvec (hidv (tokmat (View.ld x1 rBwd2)) (k0_pay3 (View.ld x2 rW1)) (k0_pay4 (View.ld x3 rB1))) (k0_pay5 (View.ld x4 rW2)) (k0_pay6 (View.ld x5 rB2))) slices_S512x8_o0_1_S512x1))) (spv (extractStridedSlice S512x1 ![0, 2] (zvec (hidv (tokmat (View.ld x1 rBwd3)) (k0_pay3 (View.ld x2 rW1)) (k0_pay4 (View.ld x3 rB1))) (k0_pay5 (View.ld x4 rW2)) (k0_pay6 (View.ld x5 rB2))) slices_S512x8_o0_2_S512x1))) (spv (extractStridedSlice S512x1 ![0, 3] (zvec (hidv (tokmat (View.ld x1 rBwd4)) (k0_pay3 (View.ld x2 rW1)) (k0_pay4 (View.ld x3 rB1))) (k0_pay5 (View.ld x4 rW2)) (k0_pay6 (View.ld x5 rB2))) slices_S512x8_o0_3_S512x1))) (spv (extractStridedSlice S512x1 ![0, 4] (zvec (hidv (tokmat (View.ld x1 rBwd5)) (k0_pay3 (View.ld x2 rW1)) (k0_pay4 (View.ld x3 rB1))) (k0_pay5 (View.ld x4 rW2)) (k0_pay6 (View.ld x5 rB2))) slices_S512x8_o0_4_S512x1))) (spv (extractStridedSlice S512x1 ![0, 5] (zvec (hidv (tokmat (View.ld x1 rBwd6)) (k0_pay3 (View.ld x2 rW1)) (k0_pay4 (View.ld x3 rB1))) (k0_pay5 (View.ld x4 rW2)) (k0_pay6 (View.ld x5 rB2))) slices_S512x8_o0_5_S512x1))) (spv (extractStridedSlice S512x1 ![0, 6] (zvec (hidv (tokmat (View.ld x1 rBwd7)) (k0_pay3 (View.ld x2 rW1)) (k0_pay4 (View.ld x3 rB1))) (k0_pay5 (View.ld x4 rW2)) (k0_pay6 (View.ld x5 rB2))) slices_S512x8_o0_6_S512x1))) (spv (extractStridedSlice S512x1 ![0, 7] (zvec (hidv (tokmat (View.ld x1 rBwd8)) (k0_pay3 (View.ld x2 rW1)) (k0_pay4 (View.ld x3 rB1))) (k0_pay5 (View.ld x4 rW2)) (k0_pay6 (View.ld x5 rB2))) slices_S512x8_o0_7_S512x1)))
      shapeCasts_S512x1_S4x128x1 := rfl

end Cert.KernelIdeal.KV

end
-- ==== Proof.Spec.lean ====
/-
  The common value of the two programs, over the extended reals.

  A token is a vector of 256 numbers.  The flow estimator sends a token `x` to eight non-negative numbers: a hidden
  layer `hid x h = max (∑ d, x d · W1 d h + b1 h) 0` of 512 units, eight logits `∑ h, hid x h · W2 h j + b2 j`, and the
  soft-plus `max z 0 + log1p (exp (−|z|))` of each logit.  The edge tensors hold, for each of 64 × 128 states, nine
  tokens.  The result array has four columns per state: the flow INTO the state (action `a`'s flow of backward token
  `a + 1`, summed over the eight actions in order), the flow OUT of it (all eight flows of forward token 0, summed), the
  state's reward, and the initial flow.
-/
import Idealize.ShloMosaic.PureOps.Ideal
import Idealize.ShloMosaic.PureOps.Ideal.Laws
import Idealize.ShloMosaic.Lib.ValueIdx

noncomputable section

namespace Cert.Flow

open Idealize.ShloMosaic Idealize.ShloMosaic.ValueIdx

/-- The hidden layer at unit `h`: the affine image of the token, clipped below at zero. -/
def hid (x : Fin 256 → EReal) (W1 : (⟨2, ![256, 512]⟩ : Shape).Idx → EReal) (b1 : (⟨1, ![512]⟩ : Shape).Idx → EReal)
    (h : Fin 512) : EReal :=
  max ((∑ d : Fin 256, x d * W1 (ix2 d h)) + b1 (ix1 h)) 0

/-- The logit of action `j`. -/
def logit (x : Fin 256 → EReal) (W1 : (⟨2, ![256, 512]⟩ : Shape).Idx → EReal) (b1 : (⟨1, ![512]⟩ : Shape).Idx → EReal)
    (W2 : (⟨2, ![512, 8]⟩ : Shape).Idx → EReal) (b2 : (⟨1, ![8]⟩ : Shape).Idx → EReal) (j : Fin 8) : EReal :=
  (∑ h : Fin 512, hid x W1 b1 h * W2 (ix2 h j)) + b2 (ix1 j)

/-- The soft-plus, in the numerically stable form both programs use: `max z 0 + log1p (exp (−|z|))`, the absolute
    value written `max z (−z)`. -/
def sp (z : EReal) : EReal := max z 0 + Ideal.log1p (Ideal.exp (-(max z (-z))))

/-- The flow of action `j` at token `x`. -/
def flow (x : Fin 256 → EReal) (W1 : (⟨2, ![256, 512]⟩ : Shape).Idx → EReal) (b1 : (⟨1, ![512]⟩ : Shape).Idx → EReal)
    (W2 : (⟨2, ![512, 8]⟩ : Shape).Idx → EReal) (b2 : (⟨1, ![8]⟩ : Shape).Idx → EReal) (j : Fin 8) : EReal :=
  sp (logit x W1 b1 W2 b2 j)

/-- Token `a` of state `(b, t)` in an edge tensor. -/
def tok (E : (⟨4, ![64, 128, 9, 256]⟩ : Shape).Idx → EReal) (b : Fin 64) (t : Fin 128) (a : Fin 9) : Fin 256 → EReal :=
  fun d => E (ix4 b t a d)

/-- The flow out of state `(b, t)`: the eight flows of forward token 0, summed. -/
def fOut (fwd : (⟨4, ![64, 128, 9, 256]⟩ : Shape).Idx → EReal) (W1 : (⟨2, ![256, 512]⟩ : Shape).Idx → EReal)
    (b1 : (⟨1, ![512]⟩ : Shape).Idx → EReal) (W2 : (⟨2, ![512, 8]⟩ : Shape).Idx → EReal) (b2 : (⟨1, ![8]⟩ : Shape).Idx → EReal)
    (b : Fin 64) (t : Fin 128) : EReal :=
  ∑ j : Fin 8, flow (tok fwd b t 0) W1 b1 W2 b2 j

/-- The flow into state `(b, t)`: action `a`'s flow of backward token `a + 1`, added up in the order of the actions. -/
def fIn (bwd : (⟨4, ![64, 128, 9, 256]⟩ : Shape).Idx → EReal) (W1 : (⟨2, ![256, 512]⟩ : Shape).Idx → EReal)
    (b1 : (⟨1, ![512]⟩ : Shape).Idx → EReal) (W2 : (⟨2, ![512, 8]⟩ : Shape).Idx → EReal) (b2 : (⟨1, ![8]⟩ : Shape).Idx → EReal)
    (b : Fin 64) (t : Fin 128) : EReal :=
  flow (tok bwd b t 1) W1 b1 W2 b2 0 + flow (tok bwd b t 2) W1 b1 W2 b2 1 + flow (tok bwd b t 3) W1 b1 W2 b2 2
    + flow (tok bwd b t 4) W1 b1 W2 b2 3 + flow (tok bwd b t 5) W1 b1 W2 b2 4 + flow (tok bwd b t 6) W1 b1 W2 b2 5
    + flow (tok bwd b t 7) W1 b1 W2 b2 6 + flow (tok bwd b t 8) W1 b1 W2 b2 7

/-- The result array, entry by entry: column 0 the flow in, 1 the flow out, 2 the reward, 3 the initial flow. -/
def result (fwd bwd : (⟨4, ![64, 128, 9, 256]⟩ : Shape).Idx → EReal) (rew : (⟨2, ![64, 128]⟩ : Shape).Idx → EReal)
    (W1 : (⟨2, ![256, 512]⟩ : Shape).Idx → EReal) (b1 : (⟨1, ![512]⟩ : Shape).Idx → EReal)
    (W2 : (⟨2, ![512, 8]⟩ : Shape).Idx → EReal) (b2 : (⟨1, ![8]⟩ : Shape).Idx → EReal) (f0 : (⟨1, ![1]⟩ : Shape).Idx → EReal)
    (b : Fin 64) (t : Fin 128) (k : Fin 4) : EReal :=
  match k with
  | ⟨0, _⟩ => fIn bwd W1 b1 W2 b2 b t
  | ⟨1, _⟩ => fOut fwd W1 b1 W2 b2 b t
  | ⟨2, _⟩ => rew (ix2 b t)
  | ⟨3, _⟩ => f0 (ix1 0)

/-- The result as an array over its index type. -/
def resultArr (fwd bwd : (⟨4, ![64, 128, 9, 256]⟩ : Shape).Idx → EReal) (rew : (⟨2, ![64, 128]⟩ : Shape).Idx → EReal)
    (W1 : (⟨2, ![256, 512]⟩ : Shape).Idx → EReal) (b1 : (⟨1, ![512]⟩ : Shape).Idx → EReal)
    (W2 : (⟨2, ![512, 8]⟩ : Shape).Idx → EReal) (b2 : (⟨1, ![8]⟩ : Shape).Idx → EReal) (f0 : (⟨1, ![1]⟩ : Shape).Idx → EReal) :
    (⟨3, ![64, 128, 4]⟩ : Shape).Idx → EReal :=
  fun i => result fwd bwd rew W1 b1 W2 b2 f0 (i 0) (i 1) (i 2)

end Cert.Flow

end
-- ==== Proof.KIndex.lean ====
/-
  The vector-level functions of the body read entry by entry: a row of the token matrix is one token; the hidden
  layer, the logits and the soft-plus at an entry are the scalar formulas of the specification; a lane sum is a sum
  over eight columns; a column slice reads one column.
-/
import proofs.«141243_g13606456393761_cont_week2b_929_17_alg».proof.Proof.KBody
import proofs.«141243_g13606456393761_cont_week2b_929_17_alg».proof.Proof.Spec

set_option maxRecDepth 16384

noncomputable section

namespace Cert.KernelIdeal.KV

open Cert.KernelIdeal Cert.KernelIdeal.Gen Cert.KernelIdeal.Fr
open Idealize.ShloMosaic Idealize.ShloMosaic.ValueIdx

/-- Row `bb · 128 + tt` of the token matrix is the token of batch `bb`, position `tt`. -/
theorem tokmat_apply (v : Vec Ideal S4x1x128x256 .f32) (bb : Fin 4) (tt : Fin 128) (d : Fin 256) (r : Fin 512) (hr : r.val = bb.val * 128 + tt.val) :
    tokmat v (ix2 r d) = v (ix4 bb 0 tt d) := by
  unfold tokmat
  refine (shapeCast_apply _ shapeCasts_S4x128x256_S512x256 (ix2 r d) (ix3 bb tt d) ?_).trans ?_
  · rewrite [Shape.rowMajor_val_three, Shape.rowMajor_val_two]
    show (bb.val * 128 + tt.val) * 256 + d.val = r.val * 256 + d.val
    rw [hr]
  · refine shapeCast_apply v shapeCasts_S4x1x128x256_S4x128x256 (ix3 bb tt d) (ix4 bb 0 tt d) ?_
    rewrite [Shape.rowMajor_val_four, Shape.rowMajor_val_three]
    show ((bb.val * 1 + 0) * 128 + tt.val) * 256 + d.val = (bb.val * 128 + tt.val) * 256 + d.val
    omega

theorem mm1_l0 (i : S512x512.Idx) (q : dot_S512x256_S256x512_S512x512_1_0_0_1_n_n.contr.Idx) : (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem mm1_r1 (i : S512x512.Idx) (q : dot_S512x256_S256x512_S512x512_1_0_0_1_n_n.contr.Idx) : (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The matrix product into a zero accumulator, entry by entry: the sum over the contracted axis. -/
theorem mm1_apply {φ₁ φ₂ : FTy} (L : FVec Ideal S512x256 φ₁) (R : FVec Ideal S256x512 φ₂) (r : Fin 512) (c : Fin 512) :
    matmul dot_S512x256_S256x512_S512x512_1_0_0_1_n_n none L R (constant (F := Ideal) S512x512 .f32 0x00000000#32) (ix2 r c)
      = ∑ k : Fin 256, L (ix2 r k) * R (ix2 k c) := by
  refine (Ideal.matmul_constant_zero_apply dot_S512x256_S256x512_S512x512_1_0_0_1_n_n none L R (ix2 r c)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 r c) ((contrEquiv1 dot_S512x256_S256x512_S512x512_1_0_0_1_n_n 256 rfl rfl).symm k) = ix2 r k := funext fun a => Fin.ext (by
    match a with
    | ⟨0, _⟩ => exact mm1_l0 _ _
    | ⟨1, _⟩ => exact (dot_S512x256_S256x512_S512x512_1_0_0_1_n_n.lhsIdx_val_of_single rfl _ _).trans hk)
  have er : dot_S512x256_S256x512_S512x512_1_0_0_1_n_n.rhsIdx (ix2 r c) ((contrEquiv1 dot_S512x256_S256x512_S512x512_1_0_0_1_n_n 256 rfl rfl).symm k) = ix2 k c := funext fun a => Fin.ext (by
    match a with
    | ⟨0, _⟩ => exact (dot_S512x256_S256x512_S512x512_1_0_0_1_n_n.rhsIdx_val_of_single rfl _ _).trans hk
    | ⟨1, _⟩ => exact mm1_r1 _ _)
  rw [el, er]

theorem mm2_l0 (i : S512x8.Idx) (q : dot_S512x512_S512x8_S512x8_1_0_0_1_n_n.contr.Idx) : (dot_S512x512_S512x8_S512x8_1_0_0_1_n_n.lhsIdx i q 0).val = (i 0).val := by
  unfold DotDims.lhsIdx
  rw [dif_neg (show ¬(0 : Fin S512x512.rank) ∈ dot_S512x512_S512x8_S512x8_1_0_0_1_n_n.lhsBatch by decide), dif_pos (show (0 : Fin S512x512.rank) ∈ dot_S512x512_S512x8_S512x8_1_0_0_1_n_n.lhsNonContracting by decide)]
  rfl
theorem mm2_r1 (i : S512x8.Idx) (q : dot_S512x512_S512x8_S512x8_1_0_0_1_n_n.contr.Idx) : (dot_S512x512_S512x8_S512x8_1_0_0_1_n_n.rhsIdx i q 1).val = (i 1).val := by
  unfold DotDims.rhsIdx
  rw [dif_neg (show ¬(1 : Fin S512x8.rank) ∈ dot_S512x512_S512x8_S512x8_1_0_0_1_n_n.rhsBatch by decide), dif_pos (show (1 : Fin S512x8.rank) ∈ dot_S512x512_S512x8_S512x8_1_0_0_1_n_n.rhsNonContracting by decide)]
  rfl

/-- The matrix product into a zero accumulator, entry by entry: the sum over the contracted axis. -/
theorem mm2_apply {φ₁ φ₂ : FTy} (L : FVec Ideal S512x512 φ₁) (R : FVec Ideal S512x8 φ₂) (r : Fin 512) (c : Fin 8) :
    matmul dot_S512x512_S512x8_S512x8_1_0_0_1_n_n none L R (constant (F := Ideal) S512x8 .f32 0x00000000#32) (ix2 r c)
      = ∑ k : Fin 512, L (ix2 r k) * R (ix2 k c) := by
  refine (Ideal.matmul_constant_zero_apply dot_S512x512_S512x8_S512x8_1_0_0_1_n_n none L R (ix2 r c)).trans ?_
  rw [← Equiv.sum_comp (contrEquiv1 dot_S512x512_S512x8_S512x8_1_0_0_1_n_n 512 rfl rfl).symm]
  refine Finset.sum_congr rfl fun k _ => ?_
  have hk := contrEquiv1_symm_val dot_S512x512_S512x8_S512x8_1_0_0_1_n_n 512 rfl rfl k
  have el : dot_S512x512_S512x8_S512x8_1_0_0_1_n_n.lhsIdx (ix2 r c) ((contrEquiv1 dot_S512x512_S512x8_S512x8_1_0_0_1_n_n 512 rfl rfl).symm k) = ix2 r k := funext fun a => Fin.ext (by
    match a with
    | ⟨0, _⟩ => exact mm2_l0 _ _
    | ⟨1, _⟩ => exact (dot_S512x512_S512x8_S512x8_1_0_0_1_n_n.lhsIdx_val_of_single rfl _ _).trans hk)
  have er : dot_S512x512_S512x8_S512x8_1_0_0_1_n_n.rhsIdx (ix2 r c) ((contrEquiv1 dot_S512x512_S512x8_S512x8_1_0_0_1_n_n 512 rfl rfl).symm k) = ix2 k c := funext fun a => Fin.ext (by
    match a with
    | ⟨0, _⟩ => exact (dot_S512x512_S512x8_S512x8_1_0_0_1_n_n.rhsIdx_val_of_single rfl _ _).trans hk
    | ⟨1, _⟩ => exact mm2_r1 _ _)
  rw [el, er]

/-- The hidden layer at an entry. -/
theorem hidv_apply (X : FVec Ideal S512x256 .f32) (w1 : FVec Ideal S256x512 .bf16) (b1 : FVec Ideal S1x512 .f32) (r h : Fin 512) :
    hidv X w1 b1 (ix2 r h) = max ((∑ k : Fin 256, X (ix2 r k) * w1 (ix2 k h)) + b1 (ix2 0 h)) 0 := by
  unfold hidv
  show max (matmul dot_S512x256_S256x512_S512x512_1_0_0_1_n_n none (truncf .bf16 X bitsLt_bf16_f32) w1 (constant (F := Ideal) S512x512 .f32 0x00000000#32) (ix2 r h)
    + broadcastTo S512x512 b1 broadcasts_S1x512_S512x512 (ix2 r h)) (Ideal.ofBits .f32 0x00000000#32) = _
  rw [mm1_apply, broadcastTo_apply b1 broadcasts_S1x512_S512x512 (ix2 r h) (ix2 0 h) (fun a => by
    match a with
    | ⟨0, _⟩ => rfl
    | ⟨1, _⟩ => rfl), Ideal.ofBits_zero_f32]
  rfl

/-- The logits at an entry. -/
theorem zvec_apply (H : FVec Ideal S512x512 .f32) (w2 : FVec Ideal S512x8 .bf16) (b2 : FVec Ideal S1x8 .f32) (r : Fin 512) (j : Fin 8) :
    zvec H w2 b2 (ix2 r j) = (∑ k : Fin 512, H (ix2 r k) * w2 (ix2 k j)) + b2 (ix2 0 j) := by
  unfold zvec
  show matmul dot_S512x512_S512x8_S512x8_1_0_0_1_n_n none (truncf .bf16 H bitsLt_bf16_f32) w2 (constant (F := Ideal) S512x8 .f32 0x00000000#32) (ix2 r j)
    + broadcastTo S512x8 b2 broadcasts_S1x8_S512x8 (ix2 r j) = _
  rw [mm2_apply, broadcastTo_apply b2 broadcasts_S1x8_S512x8 (ix2 r j) (ix2 0 j) (fun a => by
    match a with
    | ⟨0, _⟩ => rfl
    | ⟨1, _⟩ => rfl)]
  rfl

/-- The soft-plus at an entry is the scalar soft-plus. -/
theorem spv_apply {S : Shape} (z : FVec Ideal S .f32) (i : S.Idx) : spv z i = Cert.Flow.sp (z i) := by
  unfold spv Cert.Flow.sp
  show max (z i) (Ideal.ofBits .f32 0x00000000#32) + Ideal.log1p (Ideal.exp (Ideal.ofBits .f32 0x00000000#32 - max (z i) (-(z i)))) = _
  rw [Ideal.ofBits_zero_f32, zero_sub]

/-- A one-column slice reads that column. -/
theorem col_apply (z : FVec Ideal S512x8 .f32) (o : Nat) (ho : o < 8) (h : S512x8.Slices ![0, o] S512x1) (r : Fin 512) :
    extractStridedSlice S512x1 ![0, o] z h (ix2 r 0) = z (ix2 r ⟨o, ho⟩) :=
  extractStridedSlice_apply ![0, o] z h (ix2 r 0) (ix2 r ⟨o, ho⟩) (fun a => by
    match a with
    | ⟨0, _⟩ => show r.val = 0 + r.val; omega
    | ⟨1, _⟩ => show o = o + 0; omega)

/-- A lane sum of an eight-column array, at a row. -/
theorem lanesum_apply (src : FVec Ideal S512x8 .f32) (hφ : FKind.Formats .f32) (hacc : (0x00000000#32 : BitVec 32) = FKind.add.neutral .f32 hφ)
    (r : Fin 512) :
    multiReduction .add [1] S512 src 0x00000000#32 reduces_S512x8_S512 hφ hacc (ix1 r) = ∑ k : Fin 8, src (ix2 r k) := by
  refine (Ideal.multiReduction_add_single src 0x00000000#32 reduces_S512x8_S512 hφ hacc (ix1 r)).trans ?_
  refine Finset.sum_congr rfl fun k _ => congrArg src (funext fun a => Fin.ext ?_)
  match a with
  | ⟨0, _⟩ => rfl
  | ⟨1, _⟩ => rfl

end Cert.KernelIdeal.KV

end
-- ==== Proof.KStore.lean ====
/-
  The two stored values at an entry of the output block, over any contents of the six input buffers: when the
  buffers' entries are named (a forward token per batch and position, the nine backward tokens, the two weight
  matrices and the two bias rows), column 1 of the block is the flow out and column 0 the flow in of the
  specification at that batch and position.
-/
import proofs.«141243_g13606456393761_cont_week2b_929_17_alg».proof.Proof.KIndex

set_option maxRecDepth 16384

noncomputable section

namespace Cert.KernelIdeal.KV

open Cert.KernelIdeal Cert.KernelIdeal.Gen Cert.KernelIdeal.Fr
open Idealize.ShloMosaic Idealize.ShloMosaic.ValueIdx

/-- A load through a unit-stride rectangle reads the buffer at the rectangle's offsets plus the index. -/
theorem ld_bwd (x1 : Vec Ideal S4x9x128x256 .f32) (a : Nat) (ha : a + 1 ≤ 9)
    (inb : ∀ c : Fin 4, (![0, a, 0, 0] : Fin 4 → Nat) c + S4x1x128x256.size c ≤ S4x9x128x256.size c)
    (bb : Fin 4) (tt : Fin 128) (d : Fin 256) :
    View.ld x1 (Rect.unit (s := S4x9x128x256) ![0, a, 0, 0] S4x1x128x256.size inb) (ix4 bb 0 tt d) = x1 (ix4 bb ⟨a, by omega⟩ tt d) := by
  show x1 ((Rect.unit (s := S4x9x128x256) ![0, a, 0, 0] S4x1x128x256.size inb).emb (ix4 bb 0 tt d)) = _
  refine congrArg x1 (funext fun c => Fin.ext ?_)
  rw [Rect.emb_apply]
  match c with
  | ⟨0, _⟩ => show 0 + 1 * bb.val = bb.val; omega
  | ⟨1, _⟩ => show a + 1 * 0 = a; omega
  | ⟨2, _⟩ => show 0 + 1 * tt.val = tt.val; omega
  | ⟨3, _⟩ => show 0 + 1 * d.val = d.val; omega

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The flow of action `j` of the token in row `r` of a token matrix, through the vector-level functions. -/
theorem flow_row (X : FVec Ideal S512x256 .f32) (x2 : Vec Ideal S256x512 .bf16) (x3 : Vec Ideal S1x512 .f32)
    (x4 : Vec Ideal S512x8 .bf16) (x5 : Vec Ideal S1x8 .f32)
    (row : Fin 256 → EReal) (W1 : (⟨2, ![256, 512]⟩ : Shape).Idx → EReal) (B1 : (⟨1, ![512]⟩ : Shape).Idx → EReal)
    (W2 : (⟨2, ![512, 8]⟩ : Shape).Idx → EReal) (B2 : (⟨1, ![8]⟩ : Shape).Idx → EReal)
    (r : Fin 512) (hX : ∀ d, X (ix2 r d) = row d)
    (h2 : ∀ d h, x2 (ix2 d h) = W1 (ix2 d h)) (h3 : ∀ h, x3 (ix2 0 h) = B1 (ix1 h))
    (h4 : ∀ h j, x4 (ix2 h j) = W2 (ix2 h j)) (h5 : ∀ j, x5 (ix2 0 j) = B2 (ix1 j)) (j : Fin 8) :
    spv (zvec (hidv X (k0_pay3 (View.ld x2 rW1)) (k0_pay4 (View.ld x3 rB1))) (k0_pay5 (View.ld x4 rW2)) (k0_pay6 (View.ld x5 rB2))) (ix2 r j) = Cert.Flow.flow row W1 B1 W2 B2 j := by
  rw [spv_apply, zvec_apply]
  unfold Cert.Flow.flow Cert.Flow.logit
  refine congrArg Cert.Flow.sp ?_
  have e3 : ∀ h, (k0_pay4 (View.ld x3 rB1)) (ix2 0 h) = B1 (ix1 h) := fun h => by
    unfold k0_pay4; rw [shapeCast_self, View.ld_unit_zero (S := S1x512) hz2]; exact h3 h
  have e5 : ∀ j, (k0_pay6 (View.ld x5 rB2)) (ix2 0 j) = B2 (ix1 j) := fun j => by
    unfold k0_pay6; rw [shapeCast_self, View.ld_unit_zero (S := S1x8) hz2]; exact h5 j
  have e2 : ∀ d h, (k0_pay3 (View.ld x2 rW1)) (ix2 d h) = W1 (ix2 d h) := fun d h => by
    unfold k0_pay3; rw [shapeCast_self, View.ld_unit_zero (S := S256x512) hz2]; exact h2 d h
  have e4 : ∀ h j, (k0_pay5 (View.ld x4 rW2)) (ix2 h j) = W2 (ix2 h j) := fun h j => by
    unfold k0_pay5; rw [shapeCast_self, View.ld_unit_zero (S := S512x8) hz2]; exact h4 h j
  rw [e5 j]
  refine congrArg (· + B2 (ix1 j)) (Finset.sum_congr rfl fun h _ => ?_)
  rw [e4 h j, hidv_apply]
  unfold Cert.Flow.hid
  rw [e3 h]
  refine congrArg (fun s => max (s + B1 (ix1 h)) 0 * W2 (ix2 h j)) (Finset.sum_congr rfl fun d _ => ?_)
  rw [hX d, e2 d h]

/-- A soft-plus of one column of the logits, at a row. -/
theorem spv_col (z : FVec Ideal S512x8 .f32) (o : Nat) (ho : o < 8) (h : S512x8.Slices ![0, o] S512x1) (r : Fin 512) :
    spv (extractStridedSlice S512x1 ![0, o] z h) (ix2 r 0) = spv z (ix2 r ⟨o, ho⟩) := by
  rw [spv_apply, spv_apply, col_apply z o ho h r]

/-- Column 1 of the output block: the flow out. -/
theorem storeOut_val (x0 : Vec Ideal S4x1x128x256 .f32) (x2 : Vec Ideal S256x512 .bf16) (x3 : Vec Ideal S1x512 .f32)
    (x4 : Vec Ideal S512x8 .bf16) (x5 : Vec Ideal S1x8 .f32)
    (frow : Fin 4 → Fin 128 → Fin 256 → EReal) (W1 : (⟨2, ![256, 512]⟩ : Shape).Idx → EReal) (B1 : (⟨1, ![512]⟩ : Shape).Idx → EReal)
    (W2 : (⟨2, ![512, 8]⟩ : Shape).Idx → EReal) (B2 : (⟨1, ![8]⟩ : Shape).Idx → EReal)
    (h0 : ∀ bb tt d, x0 (ix4 bb 0 tt d) = frow bb tt d)
    (h2 : ∀ d h, x2 (ix2 d h) = W1 (ix2 d h)) (h3 : ∀ h, x3 (ix2 0 h) = B1 (ix1 h))
    (h4 : ∀ h j, x4 (ix2 h j) = W2 (ix2 h j)) (h5 : ∀ j, x5 (ix2 0 j) = B2 (ix1 j)) (bb : Fin 4) (tt : Fin 128) :
    storeOut (F := Ideal) x0 x2 x3 x4 x5 (ix3 bb tt 0) = ∑ j : Fin 8, Cert.Flow.flow (frow bb tt) W1 B1 W2 B2 j := by
  rw [storeOut_eq]
  have hr : bb.val * 128 + tt.val < 512 := by have := bb.isLt; have := tt.isLt; omega
  let r : Fin 512 := ⟨bb.val * 128 + tt.val, hr⟩
  refine (shapeCast_apply _ shapeCasts_S512x1_S4x128x1 (ix3 bb tt 0) (ix2 r 0) ?_).trans ?_
  · rewrite [Shape.rowMajor_val_two, Shape.rowMajor_val_three]
    show (bb.val * 128 + tt.val) * 1 + 0 = (bb.val * 128 + tt.val) * 1 + 0
    rfl
  refine (shapeCast_apply _ shapeCasts_S512_S512x1 (ix2 r 0) (ix1 r) ?_).trans ?_
  · rewrite [Shape.rowMajor_val_one, Shape.rowMajor_val_two]
    show bb.val * 128 + tt.val = (bb.val * 128 + tt.val) * 1 + 0
    omega
  refine (lanesum_apply _ _ _ r).trans ?_
  refine Finset.sum_congr rfl fun j _ => ?_
  exact flow_row (tokmat (View.ld x0 rFwd)) x2 x3 x4 x5 (frow bb tt) W1 B1 W2 B2 r (fun d => by
    rw [tokmat_apply _ bb tt d r rfl, View.ld_unit_zero (S := S4x1x128x256) hz4]; exact h0 bb tt d) h2 h3 h4 h5 j

/-- Column 0 of the output block: the flow in. -/
theorem storeIn_val (x0 : Vec Ideal S4x1x128x256 .f32) (x1 : Vec Ideal S4x9x128x256 .f32) (x2 : Vec Ideal S256x512 .bf16) (x3 : Vec Ideal S1x512 .f32)
    (x4 : Vec Ideal S512x8 .bf16) (x5 : Vec Ideal S1x8 .f32)
    (brow : Fin 9 → Fin 4 → Fin 128 → Fin 256 → EReal) (W1 : (⟨2, ![256, 512]⟩ : Shape).Idx → EReal) (B1 : (⟨1, ![512]⟩ : Shape).Idx → EReal)
    (W2 : (⟨2, ![512, 8]⟩ : Shape).Idx → EReal) (B2 : (⟨1, ![8]⟩ : Shape).Idx → EReal)
    (h1 : ∀ bb a tt d, x1 (ix4 bb a tt d) = brow a bb tt d)
    (h2 : ∀ d h, x2 (ix2 d h) = W1 (ix2 d h)) (h3 : ∀ h, x3 (ix2 0 h) = B1 (ix1 h))
    (h4 : ∀ h j, x4 (ix2 h j) = W2 (ix2 h j)) (h5 : ∀ j, x5 (ix2 0 j) = B2 (ix1 j)) (bb : Fin 4) (tt : Fin 128) :
    storeIn (F := Ideal) x0 x1 x2 x3 x4 x5 (ix3 bb tt 0)
      = Cert.Flow.flow (brow 1 bb tt) W1 B1 W2 B2 0 + Cert.Flow.flow (brow 2 bb tt) W1 B1 W2 B2 1 + Cert.Flow.flow (brow 3 bb tt) W1 B1 W2 B2 2 + Cert.Flow.flow (brow 4 bb tt) W1 B1 W2 B2 3 + Cert.Flow.flow (brow 5 bb tt) W1 B1 W2 B2 4 + Cert.Flow.flow (brow 6 bb tt) W1 B1 W2 B2 5 + Cert.Flow.flow (brow 7 bb tt) W1 B1 W2 B2 6 + Cert.Flow.flow (brow 8 bb tt) W1 B1 W2 B2 7 := by
  rw [storeIn_eq]
  have hr : bb.val * 128 + tt.val < 512 := by have := bb.isLt; have := tt.isLt; omega
  let r : Fin 512 := ⟨bb.val * 128 + tt.val, hr⟩
  refine (shapeCast_apply _ shapeCasts_S512x1_S4x128x1 (ix3 bb tt 0) (ix2 r 0) ?_).trans ?_
  · rewrite [Shape.rowMajor_val_two, Shape.rowMajor_val_three]
    show (bb.val * 128 + tt.val) * 1 + 0 = (bb.val * 128 + tt.val) * 1 + 0
    rfl
  simp only [addf_apply]
  rw [spv_col _ 0 (by omega) _ r, spv_col _ 1 (by omega) _ r, spv_col _ 2 (by omega) _ r, spv_col _ 3 (by omega) _ r, spv_col _ 4 (by omega) _ r, spv_col _ 5 (by omega) _ r, spv_col _ 6 (by omega) _ r, spv_col _ 7 (by omega) _ r]
  rw [(flow_row (tokmat (View.ld x1 rBwd1)) x2 x3 x4 x5 (brow 1 bb tt) W1 B1 W2 B2 r (fun d => by
      rw [tokmat_apply _ bb tt d r rfl, ld_bwd x1 1 (by omega) _ bb tt d]; exact h1 bb 1 tt d) h2 h3 h4 h5 ⟨0, by omega⟩),
    (flow_row (tokmat (View.ld x1 rBwd2)) x2 x3 x4 x5 (brow 2 bb tt) W1 B1 W2 B2 r (fun d => by
      rw [tokmat_apply _ bb tt d r rfl, ld_bwd x1 2 (by omega) _ bb tt d]; exact h1 bb 2 tt d) h2 h3 h4 h5 ⟨1, by omega⟩),
    (flow_row (tokmat (View.ld x1 rBwd3)) x2 x3 x4 x5 (brow 3 bb tt) W1 B1 W2 B2 r (fun d => by
      rw [tokmat_apply _ bb tt d r rfl, ld_bwd x1 3 (by omega) _ bb tt d]; exact h1 bb 3 tt d) h2 h3 h4 h5 ⟨2, by omega⟩),
    (flow_row (tokmat (View.ld x1 rBwd4)) x2 x3 x4 x5 (brow 4 bb tt) W1 B1 W2 B2 r (fun d => by
      rw [tokmat_apply _ bb tt d r rfl, ld_bwd x1 4 (by omega) _ bb tt d]; exact h1 bb 4 tt d) h2 h3 h4 h5 ⟨3, by omega⟩),
    (flow_row (tokmat (View.ld x1 rBwd5)) x2 x3 x4 x5 (brow 5 bb tt) W1 B1 W2 B2 r (fun d => by
      rw [tokmat_apply _ bb tt d r rfl, ld_bwd x1 5 (by omega) _ bb tt d]; exact h1 bb 5 tt d) h2 h3 h4 h5 ⟨4, by omega⟩),
    (flow_row (tokmat (View.ld x1 rBwd6)) x2 x3 x4 x5 (brow 6 bb tt) W1 B1 W2 B2 r (fun d => by
      rw [tokmat_apply _ bb tt d r rfl, ld_bwd x1 6 (by omega) _ bb tt d]; exact h1 bb 6 tt d) h2 h3 h4 h5 ⟨5, by omega⟩),
    (flow_row (tokmat (View.ld x1 rBwd7)) x2 x3 x4 x5 (brow 7 bb tt) W1 B1 W2 B2 r (fun d => by
      rw [tokmat_apply _ bb tt d r rfl, ld_bwd x1 7 (by omega) _ bb tt d]; exact h1 bb 7 tt d) h2 h3 h4 h5 ⟨6, by omega⟩),
    (flow_row (tokmat (View.ld x1 rBwd8)) x2 x3 x4 x5 (brow 8 bb tt) W1 B1 W2 B2 r (fun d => by
      rw [tokmat_apply _ bb tt d r rfl, ld_bwd x1 8 (by omega) _ bb tt d]; exact h1 bb 8 tt d) h2 h3 h4 h5 ⟨7, by omega⟩)]
  rfl

end Cert.KernelIdeal.KV

end
-- ==== Proof.KBlock.lean ====
/-
  The six input blocks at grid point `t`, read entry by entry off the argument arrays.  The region finds the two edge
  tensors transposed (token axis before position axis), the weight matrices rounded (the identity on extended reals)
  and the bias vectors as one-row matrices; block `t` of an edge tensor is batches `4 t … 4 t + 3`, the other four
  windows are whole arrays at every point.
-/
import proofs.«141243_g13606456393761_cont_week2b_929_17_alg».proof.Proof.FrameKI
import Idealize.ShloMosaic.Lib.ValueIdx
import Idealize.ShloMosaic.Lib.Pipeline.Value
import Idealize.ShloMosaic.Lib.StableHlo.Run

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ)

/-- Batch `4 t + bb`: batch `bb` of grid point `t`'s block. -/
def batchOf (t : Fin cfg0.N) (bb : Fin 4) : Fin 64 :=
  ⟨t.val * 4 + bb.val, by have h := lt_of_lt_of_eq t.isLt N_0; have := bb.isLt; omega⟩

/-- The block indices of the seven windows at every grid point: the edge tensors' and the output's blocks move along
    the batch axis with the point, every other coordinate is zero. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-! ## The arrays the region finds -/

theorem V_v0 (c : Dev nD) : (V m c main_call0_v0 : S64x9x128x256.Idx → EReal)
    = transpose S64x9x128x256 [0, 2, 1, 3] (m ((c : Thread nD τ).loc main_arg0)) transposes_S64x128x9x256_S64x9x128x256_0_2_1_3 := by
  show StableHlo.after hostOps0 (fun b => m (c, b)) (Proc.devRef .tc main_call0_v0) = _
  after_results; rfl

theorem V_v1 (c : Dev nD) : (V m c main_call0_v1 : S64x9x128x256.Idx → EReal)
    = transpose S64x9x128x256 [0, 2, 1, 3] (m ((c : Thread nD τ).loc main_arg1)) transposes_S64x128x9x256_S64x9x128x256_0_2_1_3 := by
  show StableHlo.after hostOps0 (fun b => m (c, b)) (Proc.devRef .tc main_call0_v1) = _
  after_results; rfl

theorem V_v2 (c : Dev nD) : @Eq (FVec Ideal S256x512 .bf16) (V m c main_call0_v2)
    (truncf .bf16 (m ((c : Thread nD τ).loc main_arg3) : FVec Ideal S256x512 .f32) bitsLt_bf16_f32) := by
  show StableHlo.after hostOps0 (fun b => m (c, b)) (Proc.devRef .tc main_call0_v2) = _
  after_results; rfl

theorem V_v3 (c : Dev nD) : (V m c main_call0_v3 : S1x512.Idx → EReal)
    = shapeCast S1x512 (m ((c : Thread nD τ).loc main_arg4)) shapeCasts_S512_S1x512 := by
  show StableHlo.after hostOps0 (fun b => m (c, b)) (Proc.devRef .tc main_call0_v3) = _
  after_results; rfl

theorem V_v4 (c : Dev nD) : @Eq (FVec Ideal S512x8 .bf16) (V m c main_call0_v4)
    (truncf .bf16 (m ((c : Thread nD τ).loc main_arg5) : FVec Ideal S512x8 .f32) bitsLt_bf16_f32) := by
  show StableHlo.after hostOps0 (fun b => m (c, b)) (Proc.devRef .tc main_call0_v4) = _
  after_results; rfl

theorem V_v5 (c : Dev nD) : (V m c main_call0_v5 : S1x8.Idx → EReal)
    = shapeCast S1x8 (m ((c : Thread nD τ).loc main_arg6)) shapeCasts_S8_S1x8 := by
  show StableHlo.after hostOps0 (fun b => m (c, b)) (Proc.devRef .tc main_call0_v5) = _
  after_results; rfl

/-! ## The blocks, entry by entry -/

/-- The forward block: batch `bb`, position `tt` of point `t` is token 0 of batch `4 t + bb`. -/
theorem blk0 (c : Dev nD) (t : Fin cfg0.N) (bb : Fin 4) (tt : Fin 128) (d : Fin 256) :
    iblk m c 0 t (ix4 bb 0 tt d) = m ((c : Thread nD τ).loc main_arg0) (ix4 (batchOf t bb) tt 0 d) := by
  show V m c main_call0_v0 (((cfg0.win 0).blk t).view.emb (ix4 bb 0 tt d)) = _
  rw [V_v0 m c]
  obtain ⟨⟨e0, e1, e2, e3⟩, -⟩ := idx_facts t
  refine transpose_apply [0, 2, 1, 3] _ _ _ (ix4 (batchOf t bb) tt 0 d) (fun b => ?_)
  match b with
  | ⟨0, _⟩ => show t.val * 4 + bb.val = win0_0.index t (0 : Fin 4) * 4 + 1 * bb.val; omega
  | ⟨1, _⟩ => show (0 : Nat) = win0_0.index t (1 : Fin 4) * 1 + 1 * 0; omega
  | ⟨2, _⟩ => show tt.val = win0_0.index t (2 : Fin 4) * 128 + 1 * tt.val; omega
  | ⟨3, _⟩ => show d.val = win0_0.index t (3 : Fin 4) * 256 + 1 * d.val; omega

/-- The backward block: token `a` of batch `bb`, position `tt` of point `t`. -/
theorem blk1 (c : Dev nD) (t : Fin cfg0.N) (bb : Fin 4) (a : Fin 9) (tt : Fin 128) (d : Fin 256) :
    iblk m c 1 t (ix4 bb a tt d) = m ((c : Thread nD τ).loc main_arg1) (ix4 (batchOf t bb) tt a d) := by
  show V m c main_call0_v1 (((cfg0.win 1).blk t).view.emb (ix4 bb a tt d)) = _
  rw [V_v1 m c]
  obtain ⟨-, ⟨e0, e1, e2, e3⟩, -⟩ := idx_facts t
  refine transpose_apply [0, 2, 1, 3] _ _ _ (ix4 (batchOf t bb) tt a d) (fun b => ?_)
  match b with
  | ⟨0, _⟩ => show t.val * 4 + bb.val = win0_1.index t (0 : Fin 4) * 4 + 1 * bb.val; omega
  | ⟨1, _⟩ => show a.val = win0_1.index t (1 : Fin 4) * 9 + 1 * a.val; omega
  | ⟨2, _⟩ => show tt.val = win0_1.index t (2 : Fin 4) * 128 + 1 * tt.val; omega
  | ⟨3, _⟩ => show d.val = win0_1.index t (3 : Fin 4) * 256 + 1 * d.val; omega

/-- The first weight matrix, whole at every point. -/
theorem blk2 (c : Dev nD) (t : Fin cfg0.N) (d : Fin 256) (h : Fin 512) :
    iblk m c 2 t (ix2 d h) = m ((c : Thread nD τ).loc main_arg3) (ix2 d h) := by
  show V m c main_call0_v2 (((cfg0.win 2).blk t).view.emb (ix2 d h)) = _
  rw [V_v2 m c]
  obtain ⟨-, -, ⟨e0, e1⟩, -⟩ := idx_facts t
  show m ((c : Thread nD τ).loc main_arg3) (((cfg0.win 2).blk t).view.emb (ix2 d h)) = _
  refine congrArg _ (funext fun a => Fin.ext ?_)
  match a with
  | ⟨0, _⟩ => show win0_2.index t (0 : Fin 2) * 256 + 1 * d.val = d.val; omega
  | ⟨1, _⟩ => show win0_2.index t (1 : Fin 2) * 512 + 1 * h.val = h.val; omega

/-- The first bias, as a one-row matrix. -/
theorem blk3 (c : Dev nD) (t : Fin cfg0.N) (h : Fin 512) :
    iblk m c 3 t (ix2 0 h) = m ((c : Thread nD τ).loc main_arg4) (ix1 h) := by
  show V m c main_call0_v3 (((cfg0.win 3).blk t).view.emb (ix2 0 h)) = _
  rw [V_v3 m c]
  obtain ⟨-, -, -, ⟨e0, e1⟩, -⟩ := idx_facts t
  refine shapeCast_apply _ shapeCasts_S512_S1x512 _ (ix1 h) ?_
  rewrite [Shape.rowMajor_val_one, Shape.rowMajor_val_two]
  show h.val = (win0_3.index t (0 : Fin 2) * 1 + 1 * 0) * 512 + (win0_3.index t (1 : Fin 2) * 512 + 1 * h.val)
  omega

/-- The second weight matrix, whole at every point. -/
theorem blk4 (c : Dev nD) (t : Fin cfg0.N) (h : Fin 512) (j : Fin 8) :
    iblk m c 4 t (ix2 h j) = m ((c : Thread nD τ).loc main_arg5) (ix2 h j) := by
  show V m c main_call0_v4 (((cfg0.win 4).blk t).view.emb (ix2 h j)) = _
  rw [V_v4 m c]
  obtain ⟨-, -, -, -, ⟨e0, e1⟩, -⟩ := idx_facts t
  show m ((c : Thread nD τ).loc main_arg5) (((cfg0.win 4).blk t).view.emb (ix2 h j)) = _
  refine congrArg _ (funext fun a => Fin.ext ?_)
  match a with
  | ⟨0, _⟩ => show win0_4.index t (0 : Fin 2) * 512 + 1 * h.val = h.val; omega
  | ⟨1, _⟩ => show win0_4.index t (1 : Fin 2) * 8 + 1 * j.val = j.val; omega

/-- The second bias, as a one-row matrix. -/
theorem blk5 (c : Dev nD) (t : Fin cfg0.N) (j : Fin 8) :
    iblk m c 5 t (ix2 0 j) = m ((c : Thread nD τ).loc main_arg6) (ix1 j) := by
  show V m c main_call0_v5 (((cfg0.win 5).blk t).view.emb (ix2 0 j)) = _
  rw [V_v5 m c]
  obtain ⟨-, -, -, -, -, ⟨e0, e1⟩, -⟩ := idx_facts t
  refine shapeCast_apply _ shapeCasts_S8_S1x8 _ (ix1 j) ?_
  rewrite [Shape.rowMajor_val_one, Shape.rowMajor_val_two]
  show j.val = (win0_5.index t (0 : Fin 2) * 1 + 1 * 0) * 8 + (win0_5.index t (1 : Fin 2) * 8 + 1 * j.val)
  omega

end Cert.KernelIdeal.KV

end
-- ==== Proof.KFinal.lean ====
/-
  The array the region's output window ends holding.  Each grid point writes back one block of four batches; its two
  column stores hold, at every batch and position, the flow in and the flow out of the specification evaluated on
  the argument arrays; the sixteen blocks tile the array.
-/
import proofs.«141243_g13606456393761_cont_week2b_929_17_alg».proof.Proof.KStore
import proofs.«141243_g13606456393761_cont_week2b_929_17_alg».proof.Proof.KBlock

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ)

/-- The two-column array of flows: column 0 the flow in, column 1 the flow out. -/
def outArr (fwd bwd : (⟨4, ![64, 128, 9, 256]⟩ : Shape).Idx → EReal) (W1 : (⟨2, ![256, 512]⟩ : Shape).Idx → EReal)
    (b1 : (⟨1, ![512]⟩ : Shape).Idx → EReal) (W2 : (⟨2, ![512, 8]⟩ : Shape).Idx → EReal) (b2 : (⟨1, ![8]⟩ : Shape).Idx → EReal) :
    (⟨3, ![64, 128, 2]⟩ : Shape).Idx → EReal :=
  fun i => if (i 2).val = 0 then Cert.Flow.fIn bwd W1 b1 W2 b2 (i 0) (i 1) else Cert.Flow.fOut fwd W1 b1 W2 b2 (i 0) (i 1)

/-- What grid point `t` writes back is block `t` of the array of flows. -/
theorem flushed_eq (c : Dev nD) (t : Fin cfg0.N) :
    (dats m 0 c).flushed 6 t = ((cfg0.win 6).blk t).view.read (Elt Ideal) (outArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show (cfg0.win 6).cut (grid0.coords t) ((dats m 0 c).after 6 t) = _
  rw [after0_6]
  unfold out0_6
  funext y
  show View.canon (Val := Elt Ideal) (e := EltTy.f32) _ y = outArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (((cfg0.win 6).blk t).view.emb y)
  obtain ⟨-, -, -, -, -, -, ⟨e0, e1, e2⟩⟩ := idx_facts t
  refine View.canon_apply_of_pieces (Val := Elt Ideal) (e := EltTy.f32) (fun y => outArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (((cfg0.win 6).blk t).view.emb y)) _ ?_ y (cover0_6 _ _ y)
  intro p hp x
  simp only [List.mem_cons, List.mem_nil_iff, or_false] at hp
  rcases hp with rfl | rfl
  · obtain ⟨bb, tt, k, rfl⟩ : ∃ (bb : Fin 4) (tt : Fin 128) (k : Fin 1), x = ix3 bb tt k := ⟨x 0, x 1, x 2, eq_ix3 x⟩
    obtain rfl : k = 0 := Subsingleton.elim _ _
    show storeOut (iblk m c 0 t) (iblk m c 2 t) (iblk m c 3 t) (iblk m c 4 t) (iblk m c 5 t) (ix3 bb tt 0)
      = outArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (((cfg0.win 6).blk t).view.emb (rOutOut.emb (ix3 bb tt 0)))
    rw [storeOut_val (iblk m c 0 t) (iblk m c 2 t) (iblk m c 3 t) (iblk m c 4 t) (iblk m c 5 t)
      (fun bb tt d => m ((c : Thread nD τ).loc main_arg0) (ix4 (batchOf t bb) tt 0 d)) (m ((c : Thread nD τ).loc main_arg3)) (m ((c : Thread nD τ).loc main_arg4)) (m ((c : Thread nD τ).loc main_arg5)) (m ((c : Thread nD τ).loc main_arg6))
      (blk0 m c t) (blk2 m c t) (blk3 m c t) (blk4 m c t) (blk5 m c t) bb tt]
    have e : ((cfg0.win 6).blk t).view.emb (rOutOut.emb (ix3 bb tt 0)) = ix3 (batchOf t bb) tt 1 := funext fun a => Fin.ext (by
      match a with
      | ⟨0, _⟩ => show win0_6.index t (0 : Fin 3) * 4 + 1 * (0 + 1 * bb.val) = t.val * 4 + bb.val; omega
      | ⟨1, _⟩ => show win0_6.index t (1 : Fin 3) * 128 + 1 * (0 + 1 * tt.val) = tt.val; omega
      | ⟨2, _⟩ => show win0_6.index t (2 : Fin 3) * 2 + 1 * (1 + 1 * 0) = 1; omega)
    rw [e]
    unfold outArr
    rw [if_neg (by show ¬ (1 : Nat) = 0; omega)]
    rfl
  · obtain ⟨bb, tt, k, rfl⟩ : ∃ (bb : Fin 4) (tt : Fin 128) (k : Fin 1), x = ix3 bb tt k := ⟨x 0, x 1, x 2, eq_ix3 x⟩
    obtain rfl : k = 0 := Subsingleton.elim _ _
    show storeIn (iblk m c 0 t) (iblk m c 1 t) (iblk m c 2 t) (iblk m c 3 t) (iblk m c 4 t) (iblk m c 5 t) (ix3 bb tt 0)
      = outArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (((cfg0.win 6).blk t).view.emb (rOutIn.emb (ix3 bb tt 0)))
    rw [storeIn_val (iblk m c 0 t) (iblk m c 1 t) (iblk m c 2 t) (iblk m c 3 t) (iblk m c 4 t) (iblk m c 5 t)
      (fun a bb tt d => m ((c : Thread nD τ).loc main_arg1) (ix4 (batchOf t bb) tt a d)) (m ((c : Thread nD τ).loc main_arg3)) (m ((c : Thread nD τ).loc main_arg4)) (m ((c : Thread nD τ).loc main_arg5)) (m ((c : Thread nD τ).loc main_arg6))
      (blk1 m c t) (blk2 m c t) (blk3 m c t) (blk4 m c t) (blk5 m c t) bb tt]
    have e : ((cfg0.win 6).blk t).view.emb (rOutIn.emb (ix3 bb tt 0)) = ix3 (batchOf t bb) tt 0 := funext fun a => Fin.ext (by
      match a with
      | ⟨0, _⟩ => show win0_6.index t (0 : Fin 3) * 4 + 1 * (0 + 1 * bb.val) = t.val * 4 + bb.val; omega
      | ⟨1, _⟩ => show win0_6.index t (1 : Fin 3) * 128 + 1 * (0 + 1 * tt.val) = tt.val; omega
      | ⟨2, _⟩ => show win0_6.index t (2 : Fin 3) * 2 + 1 * (0 + 1 * 0) = 0; omega)
    rw [e]
    unfold outArr
    rw [if_pos (by show (0 : Nat) = 0; rfl)]
    rfl

/-- An index of the array lies in point `t`'s block iff each coordinate lies in the block's range on its axis. -/
theorem mem_blk6 (t : Fin cfg0.N) (i : S64x128x2.Idx) :
    i ∈ ((cfg0.win 6).blk t).view.set ↔ ∀ a : Fin 3, win0_6.index t a * S4x128x2.size a ≤ (i a).val ∧ (i a).val < win0_6.index t a * S4x128x2.size a + S4x128x2.size a := by
  show i ∈ ((View.whole main_v0).slice (win0_6.rect t)).set ↔ _
  rw [View.set_slice_whole, Rect.mem_set_unit]
  exact Iff.rfl

/-- Every index of the array is in the block of the point that owns its batch. -/
theorem cover6 (i : S64x128x2.Idx) : ∃ t : Fin cfg0.N, (cfg0.win 6).flush t = true ∧ i ∈ ((cfg0.win 6).blk t).view.set := by
  have h0 : (i 0).val < 64 := (i 0).isLt
  have h1 : (i 1).val < 128 := (i 1).isLt
  have h2 : (i 2).val < 2 := (i 2).isLt
  have hN : (i 0).val / 4 < cfg0.N := lt_of_lt_of_eq (by omega : (i 0).val / 4 < 16) N_0.symm
  refine ⟨⟨(i 0).val / 4, hN⟩, flush0_6 _, ?_⟩
  rw [mem_blk6]
  obtain ⟨-, -, -, -, -, -, ⟨e0, e1, e2⟩⟩ := idx_facts ⟨(i 0).val / 4, hN⟩
  intro a
  match a with
  | ⟨0, _⟩ =>
    show win0_6.index ⟨(i 0).val / 4, hN⟩ (0 : Fin 3) * 4 ≤ (i 0).val ∧ (i 0).val < win0_6.index ⟨(i 0).val / 4, hN⟩ (0 : Fin 3) * 4 + 4
    rw [e0]; show (i 0).val / 4 * 4 ≤ (i 0).val ∧ (i 0).val < (i 0).val / 4 * 4 + 4; omega
  | ⟨1, _⟩ =>
    show win0_6.index ⟨(i 0).val / 4, hN⟩ (1 : Fin 3) * 128 ≤ (i 1).val ∧ (i 1).val < win0_6.index ⟨(i 0).val / 4, hN⟩ (1 : Fin 3) * 128 + 128
    rw [e1]; omega
  | ⟨2, _⟩ =>
    show win0_6.index ⟨(i 0).val / 4, hN⟩ (2 : Fin 3) * 2 ≤ (i 2).val ∧ (i 2).val < win0_6.index ⟨(i 0).val / 4, hN⟩ (2 : Fin 3) * 2 + 2
    rw [e2]; omega

/-- The output window's array after the run is the array of flows. -/
theorem final6 (c : Dev nD) : (dats m 0 c).arrAt 6 cfg0.N = outArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (dats m 0 c).arrAt_eq_of_cover 6 _ (fun t _ => flushed_eq m c t) cover6

end Cert.KernelIdeal.KV

end
-- ==== Proof.KTail.lean ====
/-
  The program's result buffer.  After the region, the host reshapes the rewards to one column, broadcasts the
  initial flow to one column, and joins the region's two columns of flows with them along the last axis: the result
  is the specification's four-column array.
-/
import proofs.«141243_g13606456393761_cont_week2b_929_17_alg».proof.Proof.KFinal

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ)

/-- A three-operand host operation leaves its result buffer at its function of the three operands' contents. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

open Idealize.ShloMosaic.StableHlo in
/-- The result buffer after the operations that follow the region: the join of the region's output array, the
    rewards as a column and the initial flow as a column. -/
theorem tail_v4 (c : Dev nD) :
    Pipeline.afterTail₀ cfgs (dats m) 0 (V0 m) [hostOps1] c main_v4
      = concatenate S64x128x4 2 [⟨S64x128x2, (dats m 0 c).arrAt 6 cfg0.N⟩,
          ⟨S64x128x1, shapeCast S64x128x1 (m ((c : Thread nD τ).loc main_arg2)) shapeCasts_S64x128_S64x128x1⟩,
          ⟨S64x128x1, broadcastInDim S64x128x1 ![0, 1, 2] bcast_S1x1x1_S64x128x1_0_1_2
            (shapeCast S1x1x1 (m ((c : Thread nD τ).loc main_arg7)) shapeCasts_S1_S1x1x1)⟩]
          concatenates_S64x128x2_S64x128x1_S64x128x1_S64x128x4_d2 := by
  unfold Pipeline.afterTail₀
  show StableHlo.after hostOps1 _ (Proc.devRef .tc main_v4) = _
  simp only [after_cons, after_nil]
  rw [nary3_result]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  have hA : (Pipeline.withArrays (cfgs 0).spec c (V0 m c) (fun w => (dats m 0 c).arrAt w (cfgs 0).N) (Proc.devRef .tc main_v0)) = (dats m 0 c).arrAt 6 cfg0.N :=
    Pipeline.withArrays_arr spec0 launch0.win.arr_inj c _ _ 6
  have h2 : (Pipeline.withArrays (cfgs 0).spec c (V0 m c) (fun w => (dats m 0 c).arrAt w (cfgs 0).N) (Proc.devRef .tc main_arg2)) = m ((c : Thread nD τ).loc main_arg2) :=
    (Pipeline.withArrays_of_ne _ c (V0 m c) _ main_arg2 (by exact (by decide : ∀ w, Pipeline.arrRef spec0 w ≠ main_arg2))).trans (V_main_arg2 m c)
  have h7 : (Pipeline.withArrays (cfgs 0).spec c (V0 m c) (fun w => (dats m 0 c).arrAt w (cfgs 0).N) (Proc.devRef .tc main_arg7)) = m ((c : Thread nD τ).loc main_arg7) :=
    (Pipeline.withArrays_of_ne _ c (V0 m c) _ main_arg7 (by exact (by decide : ∀ w, Pipeline.arrRef spec0 w ≠ main_arg7))).trans (V_main_arg7 m c)
  rw [hA, h2, h7]
  rfl

/-- The join of a two-column piece and two one-column pieces along the last axis, at column `k < 2`: the first
    piece's column `k`. -/
theorem cat_first {α : Type} (p0 : S64x128x2.Idx → α) (p1 p2 : S64x128x1.Idx → α) (b : Fin 64) (t : Fin 128) (k : Fin 2) :
    concatenate S64x128x4 2 [⟨S64x128x2, p0⟩, ⟨S64x128x1, p1⟩, ⟨S64x128x1, p2⟩] concatenates_S64x128x2_S64x128x1_S64x128x1_S64x128x4_d2
      (ix3 b t (⟨k.val, by omega⟩ : Fin 4)) = p0 (ix3 b t k) :=
  concatenate_apply_piece (2 : Fin S64x128x4.rank) [⟨S64x128x2, p0⟩, ⟨S64x128x1, p1⟩, ⟨S64x128x1, p2⟩] concatenates_S64x128x2_S64x128x1_S64x128x1_S64x128x4_d2
    (ix3 b t (⟨k.val, by omega⟩ : Fin 4)) 0 (by simp) S64x128x2 p0 rfl rfl 0 rfl (ix3 b t k)
    (fun c hc => by
      match c with
      | ⟨0, _⟩ => rfl
      | ⟨1, _⟩ => rfl
      | ⟨2, _⟩ => exact absurd rfl hc)
    (by show 0 + k.val = k.val; omega)

/-- At column 2: the second piece. -/
theorem cat_second {α : Type} (p0 : S64x128x2.Idx → α) (p1 p2 : S64x128x1.Idx → α) (b : Fin 64) (t : Fin 128) :
    concatenate S64x128x4 2 [⟨S64x128x2, p0⟩, ⟨S64x128x1, p1⟩, ⟨S64x128x1, p2⟩] concatenates_S64x128x2_S64x128x1_S64x128x1_S64x128x4_d2
      (ix3 b t (⟨2, by decide⟩ : Fin 4)) = p1 (ix3 b t 0) :=
  concatenate_apply_piece (2 : Fin S64x128x4.rank) [⟨S64x128x2, p0⟩, ⟨S64x128x1, p1⟩, ⟨S64x128x1, p2⟩] concatenates_S64x128x2_S64x128x1_S64x128x1_S64x128x4_d2
    (ix3 b t (⟨2, by decide⟩ : Fin 4)) 1 (by simp) S64x128x1 p1 rfl rfl 2 rfl (ix3 b t 0)
    (fun c hc => by
      match c with
      | ⟨0, _⟩ => rfl
      | ⟨1, _⟩ => rfl
      | ⟨2, _⟩ => exact absurd rfl hc)
    rfl

/-- At column 3: the third piece. -/
theorem cat_third {α : Type} (p0 : S64x128x2.Idx → α) (p1 p2 : S64x128x1.Idx → α) (b : Fin 64) (t : Fin 128) :
    concatenate S64x128x4 2 [⟨S64x128x2, p0⟩, ⟨S64x128x1, p1⟩, ⟨S64x128x1, p2⟩] concatenates_S64x128x2_S64x128x1_S64x128x1_S64x128x4_d2
      (ix3 b t (⟨3, by decide⟩ : Fin 4)) = p2 (ix3 b t 0) :=
  concatenate_apply_piece (2 : Fin S64x128x4.rank) [⟨S64x128x2, p0⟩, ⟨S64x128x1, p1⟩, ⟨S64x128x1, p2⟩] concatenates_S64x128x2_S64x128x1_S64x128x1_S64x128x4_d2
    (ix3 b t (⟨3, by decide⟩ : Fin 4)) 2 (by simp) S64x128x1 p2 rfl rfl 3 rfl (ix3 b t 0)
    (fun c hc => by
      match c with
      | ⟨0, _⟩ => rfl
      | ⟨1, _⟩ => rfl
      | ⟨2, _⟩ => exact absurd rfl hc)
    rfl

/-- The result buffer is the specification's array of the argument arrays. -/
theorem kernel_result (c : Dev nD) :
    Pipeline.afterTail₀ cfgs (dats m) 0 (V0 m) [hostOps1] c main_v4 = Cert.Flow.resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [tail_v4, final6]
  funext i
  obtain ⟨b, t, k, rfl⟩ : ∃ (b : Fin 64) (t : Fin 128) (k : Fin 4), i = ix3 b t k := ⟨i 0, i 1, i 2, eq_ix3 i⟩
  show _ = Cert.Flow.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b t k
  match k with
  | ⟨0, _⟩ =>
    refine (cat_first _ _ _ b t 0).trans ?_
    unfold outArr; rw [if_pos (by rfl)]; rfl
  | ⟨1, _⟩ =>
    refine (cat_first _ _ _ b t 1).trans ?_
    unfold outArr; rw [if_neg (by show ¬ (1 : Nat) = 0; omega)]; rfl
  | ⟨2, _⟩ =>
    refine (cat_second _ _ _ b t).trans ?_
    refine shapeCast_apply _ shapeCasts_S64x128_S64x128x1 (ix3 b t 0) (ix2 b t) ?_
    rewrite [Shape.rowMajor_val_two, Shape.rowMajor_val_three]
    show b.val * 128 + t.val = (b.val * 128 + t.val) * 1 + 0
    omega
  | ⟨3, _⟩ =>
    refine (cat_third _ _ _ b t).trans ?_
    refine (broadcastInDim_apply ![0, 1, 2] bcast_S1x1x1_S64x128x1_0_1_2 _ (ix3 b t 0) (ix3 0 0 0) (fun a => ?_)).trans ?_
    · match a with
      | ⟨0, _⟩ => rfl
      | ⟨1, _⟩ => rfl
      | ⟨2, _⟩ => rfl
    · refine shapeCast_apply _ shapeCasts_S1_S1x1x1 (ix3 0 0 0) (ix1 0) ?_
      rewrite [Shape.rowMajor_val_one, Shape.rowMajor_val_three]
      rfl

end Cert.KernelIdeal.KV

end
-- ==== Proof.KRun.lean ====
/-
  The idealized kernel's run, read: every weakly fair execution terminates with the result buffer at the
  specification's array of the argument arrays, and the argument arrays unchanged.
-/
import proofs.«141243_g13606456393761_cont_week2b_929_17_alg».proof.Proof.KTail

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.Flow.resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_v4 (Pipeline.mem_restRefs_of main_v4 (by decide) (by decide))).trans (kernel_result m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main (F := Ideal) m ρ)

end Cert.KernelIdeal.KV

end
-- ==== Proof.RefMlp.lean ====
/-
  The flow estimator as one function of arrays, and its value at an index.

  The reference applies the same two-layer network nine times, each time to a different [8192, 256] array of tokens.
  Here the network is written once, as a function of that array, with the very array operations the printed program
  uses (matrix product, bias broadcast, clipping at zero, matrix product, bias broadcast, the stable soft-plus with its
  not-a-number guard), and read at an index over the extended reals: row `r`, action `j` holds
  `max z 0 + log1p (exp (−|z|))` of the logit `z = ∑ h, max (∑ d, y r d · W1 d h + b1 h) 0 · W2 h j + b2 j`.
  On the extended reals the guard `z − 0 ≠ z − 0` is never taken, `z − 0 = z`, and `|z| = max z (−z)`.
-/
import proofs.«141243_g13606456393761_cont_week2b_929_17_alg».proof.Proof.Gen.ReferenceIdeal
import Idealize.ShloMosaic.Lib.Pipeline.Value
import Idealize.ShloMosaic.Lib.ValueIdx
import Idealize.ShloMosaic.Lib.ValueIdxCoords
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

variable {F : FTy → Type} [FloatOps F]

/-! ## The network as array operations -/

/-- The hidden layer: `max (y · W1 + b1) 0`, the bias broadcast over the rows. -/
def hidArr (y : (⟨S8192x256, .f32⟩ : BufTy).Contents (Elt F)) (x3 : (⟨S256x512, .f32⟩ : BufTy).Contents (Elt F))
    (x4 : (⟨S512, .f32⟩ : BufTy).Contents (Elt F)) : (⟨S8192x512, .f32⟩ : BufTy).Contents (Elt F) :=
  maximumf
    (addf (Host.dotGeneral dot_S8192x256_S256x512_S8192x512_1_0_0_1_n_n none y x3)
      (broadcastInDim S8192x512 ![0, 1] bcast_S1x512_S8192x512_0_1 (broadcastInDim S1x512 ![1] bcast_S512_S1x512_1 x4)))
    (broadcastInDim S8192x512 ![] bcast_S_S8192x512 (constant S_ .f32 0x00000000#32))

/-- The logits: `hidden · W2 + b2`. -/
def logitArr (y : (⟨S8192x256, .f32⟩ : BufTy).Contents (Elt F)) (x3 : (⟨S256x512, .f32⟩ : BufTy).Contents (Elt F))
    (x4 : (⟨S512, .f32⟩ : BufTy).Contents (Elt F)) (x5 : (⟨S512x8, .f32⟩ : BufTy).Contents (Elt F))
    (x6 : (⟨S8, .f32⟩ : BufTy).Contents (Elt F)) : (⟨S8192x8, .f32⟩ : BufTy).Contents (Elt F) :=
  addf (Host.dotGeneral dot_S8192x512_S512x8_S8192x8_1_0_0_1_n_n none (hidArr y x3 x4) x5)
    (broadcastInDim S8192x8 ![0, 1] bcast_S1x8_S8192x8_0_1 (broadcastInDim S1x8 ![1] bcast_S8_S1x8_1 x6))

/-- The zero array the soft-plus compares with. -/
def zero8 : (⟨S8192x8, .f32⟩ : BufTy).Contents (Elt F) :=
  broadcastInDim S8192x8 ![] bcast_S_S8192x8 (constant S_ .f32 0x00000000#32)

/-- The soft-plus `logaddexp z 0` as the host prints it: where `z − 0` is not a number, `z + 0`; elsewhere
    `max z 0 + log1p (exp (−|z − 0|))`. -/
def spArr (z : (⟨S8192x8, .f32⟩ : BufTy).Contents (Elt F)) : (⟨S8192x8, .f32⟩ : BufTy).Contents (Elt F) :=
  select (cmpf .une (subf z (zero8 (F := F))) (subf z (zero8 (F := F)))) (addf z (zero8 (F := F)))
    (addf (maximumf z (zero8 (F := F))) (Host.log1p (Host.exp (Host.negf (Host.absf (subf z (zero8 (F := F))))))))

/-- The flow estimator on an array of 8192 tokens. -/
def mlp (y : (⟨S8192x256, .f32⟩ : BufTy).Contents (Elt F)) (x3 : (⟨S256x512, .f32⟩ : BufTy).Contents (Elt F))
    (x4 : (⟨S512, .f32⟩ : BufTy).Contents (Elt F)) (x5 : (⟨S512x8, .f32⟩ : BufTy).Contents (Elt F))
    (x6 : (⟨S8, .f32⟩ : BufTy).Contents (Elt F)) : (⟨S8192x8, .f32⟩ : BufTy).Contents (Elt F) :=
  spArr (logitArr y x3 x4 x5 x6)

/-! ## The two matrix products at an index -/

/-- The left operand's row coordinate is the output's row. -/
theorem dot1_lhs0 (i : S8192x512.Idx) (q : dot_S8192x256_S256x512_S8192x512_1_0_0_1_n_n.contr.Idx) :
    (dot_S8192x256_S256x512_S8192x512_1_0_0_1_n_n.lhsIdx i q 0).val = (i 0).val := by
  unfold DotDims.lhsIdx
  rw [dif_neg (show ¬(0 : Fin S8192x256.rank) ∈ dot_S8192x256_S256x512_S8192x512_1_0_0_1_n_n.lhsBatch by decide),
    dif_pos (show (0 : Fin S8192x256.rank) ∈ dot_S8192x256_S256x512_S8192x512_1_0_0_1_n_n.lhsNonContracting by decide)]
  rfl

/-- The right operand's column coordinate is the output's column. -/
theorem dot1_rhs1 (i : S8192x512.Idx) (q : dot_S8192x256_S256x512_S8192x512_1_0_0_1_n_n.contr.Idx) :
    (dot_S8192x256_S256x512_S8192x512_1_0_0_1_n_n.rhsIdx i q 1).val = (i 1).val := by
  unfold DotDims.rhsIdx
  rw [dif_neg (show ¬(1 : Fin S256x512.rank) ∈ dot_S8192x256_S256x512_S8192x512_1_0_0_1_n_n.rhsBatch by decide),
    dif_pos (show (1 : Fin S256x512.rank) ∈ dot_S8192x256_S256x512_S8192x512_1_0_0_1_n_n.rhsNonContracting by decide)]
  rfl

/-- The left operand's row coordinate is the output's row. -/
theorem dot2_lhs0 (i : S8192x8.Idx) (q : dot_S8192x512_S512x8_S8192x8_1_0_0_1_n_n.contr.Idx) :
    (dot_S8192x512_S512x8_S8192x8_1_0_0_1_n_n.lhsIdx i q 0).val = (i 0).val := by
  unfold DotDims.lhsIdx
  rw [dif_neg (show ¬(0 : Fin S8192x512.rank) ∈ dot_S8192x512_S512x8_S8192x8_1_0_0_1_n_n.lhsBatch by decide),
    dif_pos (show (0 : Fin S8192x512.rank) ∈ dot_S8192x512_S512x8_S8192x8_1_0_0_1_n_n.lhsNonContracting by decide)]
  rfl

/-- The right operand's column coordinate is the output's column. -/
theorem dot2_rhs1 (i : S8192x8.Idx) (q : dot_S8192x512_S512x8_S8192x8_1_0_0_1_n_n.contr.Idx) :
    (dot_S8192x512_S512x8_S8192x8_1_0_0_1_n_n.rhsIdx i q 1).val = (i 1).val := by
  unfold DotDims.rhsIdx
  rw [dif_neg (show ¬(1 : Fin S512x8.rank) ∈ dot_S8192x512_S512x8_S8192x8_1_0_0_1_n_n.rhsBatch by decide),
    dif_pos (show (1 : Fin S512x8.rank) ∈ dot_S8192x512_S512x8_S8192x8_1_0_0_1_n_n.rhsNonContracting by decide)]
  rfl

/-- The first product at row `r`, unit `h`: the sum over the 256 token coordinates. -/
theorem dot1_apply (y : (⟨S8192x256, .f32⟩ : BufTy).Contents (Elt Ideal)) (w : (⟨S256x512, .f32⟩ : BufTy).Contents (Elt Ideal))
    (r : Fin 8192) (h : Fin 512) :
    Host.dotGeneral (F := Ideal) (φ₁ := .f32) (φ₂ := .f32) dot_S8192x256_S256x512_S8192x512_1_0_0_1_n_n none y w (ix2 r h)
      = ∑ d : Fin 256, y (ix2 r d) * w (ix2 d h) := by
  simp only [Host.dotGeneral]
  rw [Ideal.dotGeneral_apply,
    ← Equiv.sum_comp (ValueIdx.contrEquiv1 dot_S8192x256_S256x512_S8192x512_1_0_0_1_n_n 256 rfl rfl).symm]
  refine Finset.sum_congr rfl fun k _ => ?_
  have hk := ValueIdx.contrEquiv1_symm_val dot_S8192x256_S256x512_S8192x512_1_0_0_1_n_n 256 rfl rfl k
  have el : dot_S8192x256_S256x512_S8192x512_1_0_0_1_n_n.lhsIdx (ix2 r h)
      ((ValueIdx.contrEquiv1 dot_S8192x256_S256x512_S8192x512_1_0_0_1_n_n 256 rfl rfl).symm k) = ix2 r k :=
    funext fun a => Fin.ext (by
      match a with
      | ⟨0, _⟩ => exact dot1_lhs0 _ _
      | ⟨1, _⟩ => exact (dot_S8192x256_S256x512_S8192x512_1_0_0_1_n_n.lhsIdx_val_of_single rfl _ _).trans hk)
  have er : dot_S8192x256_S256x512_S8192x512_1_0_0_1_n_n.rhsIdx (ix2 r h)
      ((ValueIdx.contrEquiv1 dot_S8192x256_S256x512_S8192x512_1_0_0_1_n_n 256 rfl rfl).symm k) = ix2 k h :=
    funext fun a => Fin.ext (by
      match a with
      | ⟨0, _⟩ => exact (dot_S8192x256_S256x512_S8192x512_1_0_0_1_n_n.rhsIdx_val_of_single rfl _ _).trans hk
      | ⟨1, _⟩ => exact dot1_rhs1 _ _)
  rw [el, er]

/-- The second product at row `r`, action `j`: the sum over the 512 hidden units. -/
theorem dot2_apply (y : (⟨S8192x512, .f32⟩ : BufTy).Contents (Elt Ideal)) (w : (⟨S512x8, .f32⟩ : BufTy).Contents (Elt Ideal))
    (r : Fin 8192) (j : Fin 8) :
    Host.dotGeneral (F := Ideal) (φ₁ := .f32) (φ₂ := .f32) dot_S8192x512_S512x8_S8192x8_1_0_0_1_n_n none y w (ix2 r j)
      = ∑ h : Fin 512, y (ix2 r h) * w (ix2 h j) := by
  simp only [Host.dotGeneral]
  rw [Ideal.dotGeneral_apply,
    ← Equiv.sum_comp (ValueIdx.contrEquiv1 dot_S8192x512_S512x8_S8192x8_1_0_0_1_n_n 512 rfl rfl).symm]
  refine Finset.sum_congr rfl fun k _ => ?_
  have hk := ValueIdx.contrEquiv1_symm_val dot_S8192x512_S512x8_S8192x8_1_0_0_1_n_n 512 rfl rfl k
  have el : dot_S8192x512_S512x8_S8192x8_1_0_0_1_n_n.lhsIdx (ix2 r j)
      ((ValueIdx.contrEquiv1 dot_S8192x512_S512x8_S8192x8_1_0_0_1_n_n 512 rfl rfl).symm k) = ix2 r k :=
    funext fun a => Fin.ext (by
      match a with
      | ⟨0, _⟩ => exact dot2_lhs0 _ _
      | ⟨1, _⟩ => exact (dot_S8192x512_S512x8_S8192x8_1_0_0_1_n_n.lhsIdx_val_of_single rfl _ _).trans hk)
  have er : dot_S8192x512_S512x8_S8192x8_1_0_0_1_n_n.rhsIdx (ix2 r j)
      ((ValueIdx.contrEquiv1 dot_S8192x512_S512x8_S8192x8_1_0_0_1_n_n 512 rfl rfl).symm k) = ix2 k j :=
    funext fun a => Fin.ext (by
      match a with
      | ⟨0, _⟩ => exact (dot_S8192x512_S512x8_S8192x8_1_0_0_1_n_n.rhsIdx_val_of_single rfl _ _).trans hk
      | ⟨1, _⟩ => exact dot2_rhs1 _ _)
  rw [el, er]

/-! ## The broadcasts at an index -/

/-- The first bias, broadcast [512] → [1, 512] → [8192, 512], at row `r`, unit `h`. -/
theorem bias1_apply {α : Type} (x4 : S512.Idx → α) (r : Fin 8192) (h : Fin 512) :
    broadcastInDim S8192x512 ![0, 1] bcast_S1x512_S8192x512_0_1 (broadcastInDim S1x512 ![1] bcast_S512_S1x512_1 x4) (ix2 r h)
      = x4 (ix1 h) := by
  rw [broadcastInDim_apply _ bcast_S1x512_S8192x512_0_1 _ (ix2 r h) (ix2 (⟨0, Nat.one_pos⟩ : Fin 1) h) (fun a => match a with
      | ⟨0, _⟩ => by show 0 = if (1 : Nat) = 1 then 0 else r.val; rw [if_pos rfl]
      | ⟨1, _⟩ => by show h.val = if (512 : Nat) = 1 then 0 else h.val; rw [if_neg (by decide)]),
    broadcastInDim_apply _ bcast_S512_S1x512_1 x4 (ix2 (⟨0, Nat.one_pos⟩ : Fin 1) h) (ix1 h) (fun a => match a with
      | ⟨0, _⟩ => by show h.val = if (512 : Nat) = 1 then 0 else h.val; rw [if_neg (by decide)])]

/-- The second bias, broadcast [8] → [1, 8] → [8192, 8], at row `r`, action `j`. -/
theorem bias2_apply {α : Type} (x6 : S8.Idx → α) (r : Fin 8192) (j : Fin 8) :
    broadcastInDim S8192x8 ![0, 1] bcast_S1x8_S8192x8_0_1 (broadcastInDim S1x8 ![1] bcast_S8_S1x8_1 x6) (ix2 r j)
      = x6 (ix1 j) := by
  rw [broadcastInDim_apply _ bcast_S1x8_S8192x8_0_1 _ (ix2 r j) (ix2 (⟨0, Nat.one_pos⟩ : Fin 1) j) (fun a => match a with
      | ⟨0, _⟩ => by show 0 = if (1 : Nat) = 1 then 0 else r.val; rw [if_pos rfl]
      | ⟨1, _⟩ => by show j.val = if (8 : Nat) = 1 then 0 else j.val; rw [if_neg (by decide)]),
    broadcastInDim_apply _ bcast_S8_S1x8_1 x6 (ix2 (⟨0, Nat.one_pos⟩ : Fin 1) j) (ix1 j) (fun a => match a with
      | ⟨0, _⟩ => by show j.val = if (8 : Nat) = 1 then 0 else j.val; rw [if_neg (by decide)])]

/-- The zero scalar broadcast over [8192, 512] is zero everywhere. -/
theorem zero512_apply (i : S8192x512.Idx) :
    broadcastInDim S8192x512 ![] bcast_S_S8192x512 (constant (F := Ideal) S_ .f32 0x00000000#32) i = (0 : EReal) := by
  rw [broadcastInDim_apply _ bcast_S_S8192x512 _ i (fun a => a.elim0) (fun a => a.elim0)]
  exact Ideal.ofBits_zero_f32

/-- The zero scalar broadcast over [8192, 8] is zero everywhere. -/
theorem zero8_apply (i : S8192x8.Idx) : zero8 (F := Ideal) i = (0 : EReal) := by
  unfold zero8
  rw [broadcastInDim_apply _ bcast_S_S8192x8 _ i (fun a => a.elim0) (fun a => a.elim0)]
  exact Ideal.ofBits_zero_f32

/-! ## The network at an index -/

/-- The hidden layer at row `r`, unit `h`. -/
theorem hidArr_apply (y : (⟨S8192x256, .f32⟩ : BufTy).Contents (Elt Ideal)) (x3 : (⟨S256x512, .f32⟩ : BufTy).Contents (Elt Ideal))
    (x4 : (⟨S512, .f32⟩ : BufTy).Contents (Elt Ideal)) (r : Fin 8192) (h : Fin 512) :
    hidArr (F := Ideal) y x3 x4 (ix2 r h) = max ((∑ d : Fin 256, y (ix2 r d) * x3 (ix2 d h)) + x4 (ix1 h)) (0 : EReal) := by
  unfold hidArr
  rw [maximumf_apply, addf_apply, dot1_apply, bias1_apply, zero512_apply]

/-- The logit at row `r`, action `j`. -/
theorem logitArr_apply (y : (⟨S8192x256, .f32⟩ : BufTy).Contents (Elt Ideal)) (x3 : (⟨S256x512, .f32⟩ : BufTy).Contents (Elt Ideal))
    (x4 : (⟨S512, .f32⟩ : BufTy).Contents (Elt Ideal)) (x5 : (⟨S512x8, .f32⟩ : BufTy).Contents (Elt Ideal))
    (x6 : (⟨S8, .f32⟩ : BufTy).Contents (Elt Ideal)) (r : Fin 8192) (j : Fin 8) :
    logitArr (F := Ideal) y x3 x4 x5 x6 (ix2 r j)
      = (∑ h : Fin 512, max ((∑ d : Fin 256, y (ix2 r d) * x3 (ix2 d h)) + x4 (ix1 h)) (0 : EReal) * x5 (ix2 h j)) + x6 (ix1 j) := by
  unfold logitArr
  rw [addf_apply, dot2_apply, bias2_apply]
  simp only [hidArr_apply]

/-- The soft-plus array at an index: the guard is never taken, `z − 0 = z`, `|z| = max z (−z)`. -/
theorem spArr_apply (z : (⟨S8192x8, .f32⟩ : BufTy).Contents (Elt Ideal)) (i : S8192x8.Idx) :
    spArr (F := Ideal) z i = max (z i) 0 + Ideal.log1p (Ideal.exp (-(max (z i) (-(z i))))) := by
  have hz : z i - (0 : EReal) = z i := sub_zero _
  have hc : Ideal.cmp .une (z i) (z i) = 0#1 := by simp [Ideal.cmp]
  unfold spArr
  rw [select_apply, cmpf_apply, subf_apply, addf_apply, addf_apply, maximumf_apply]
  simp only [Host.log1p, Host.exp, Host.negf, Host.absf, subf_apply, zero8_apply, Ideal.cmpf_def,
    Ideal.hostUnary_log1p_def, Ideal.hostUnary_exp_def, Ideal.hostNegf_def, Ideal.negf_def, Ideal.hostAbsf_def,
    Ideal.absf_def, hz, hc, select_zero]

/-- **The flow estimator at an index**: row `r`, action `j` of the network applied to the token array `y`. -/
theorem mlp_apply (y : (⟨S8192x256, .f32⟩ : BufTy).Contents (Elt Ideal)) (x3 : (⟨S256x512, .f32⟩ : BufTy).Contents (Elt Ideal))
    (x4 : (⟨S512, .f32⟩ : BufTy).Contents (Elt Ideal)) (x5 : (⟨S512x8, .f32⟩ : BufTy).Contents (Elt Ideal))
    (x6 : (⟨S8, .f32⟩ : BufTy).Contents (Elt Ideal)) (r : Fin 8192) (j : Fin 8) :
    mlp (F := Ideal) y x3 x4 x5 x6 (ix2 r j)
      = max ((∑ h : Fin 512, max ((∑ d : Fin 256, y (ix2 r d) * x3 (ix2 d h)) + x4 (ix1 h)) (0 : EReal) * x5 (ix2 h j)) + x6 (ix1 j)) 0
        + Ideal.log1p (Ideal.exp (-(max ((∑ h : Fin 512, max ((∑ d : Fin 256, y (ix2 r d) * x3 (ix2 d h)) + x4 (ix1 h)) (0 : EReal) * x5 (ix2 h j)) + x6 (ix1 j))
            (-((∑ h : Fin 512, max ((∑ d : Fin 256, y (ix2 r d) * x3 (ix2 d h)) + x4 (ix1 h)) (0 : EReal) * x5 (ix2 h j)) + x6 (ix1 j)))))) := by
  unfold mlp
  rw [spArr_apply, logitArr_apply]

end Cert.ReferenceIdeal.RefValue

end
-- ==== Proof.RefStages.lean ====
/-
  The nine evaluations of the flow estimator in the reference, each read at an index.

  Every evaluation slices one token out of an edge tensor ([64, 128, 9, 256] → [64, 128, 1, 256]), flattens the states
  ([64, 128, 256] → [8192, 256]: state `(b, t)` becomes row `b·128 + t`), and applies the network; the eight backward
  evaluations then take one column of the result and lay it back out over the states ([8192, 1] → [8192] →
  [64, 128, 1]). These are index arithmetic only. Each evaluation is, by unfolding, the generic network of the
  previous module applied to its token array, so its value at row `b·128 + t`, action `j` is the specification's flow
  of action `j` at that token of state `(b, t)`.
-/
import proofs.«141243_g13606456393761_cont_week2b_929_17_alg».proof.Proof.RefRead
import proofs.«141243_g13606456393761_cont_week2b_929_17_alg».proof.Proof.RefMlp
import proofs.«141243_g13606456393761_cont_week2b_929_17_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The row of state `(b, t)` in the flattened arrays. -/
abbrev row (b : Fin 64) (t : Fin 128) : Fin 8192 := ⟨b.val * 128 + t.val, by have := b.isLt; have := t.isLt; omega⟩

/-! ## The reshapes' index maps at a state -/

/-- [8192, 256] back to [64, 128, 256]: row `b·128 + t`, coordinate `d` is `(b, t, d)`. -/
theorem idx_rows (b : Fin 64) (t : Fin 128) (d : Fin 256) : idx_main_v2 (ix2 (row b t) d) = ix3 b t d :=
  funext fun a => Fin.ext (by
    have hb := b.isLt; have ht := t.isLt; have hd := d.isLt
    match a with
    | ⟨0, _⟩ => show ((b.val * 128 + t.val) * 256 + d.val) / 32768 = b.val; omega
    | ⟨1, _⟩ => show ((b.val * 128 + t.val) * 256 + d.val) / 256 % 128 = t.val; omega
    | ⟨2, _⟩ => show ((b.val * 128 + t.val) * 256 + d.val) % 256 = d.val; omega)

/-- [64, 128, 256] back to [64, 128, 1, 256]: `(b, t, d)` is `(b, t, 0, d)`. -/
theorem idx_unit (b : Fin 64) (t : Fin 128) (d : Fin 256) : idx_main_v1 (ix3 b t d) = ix4 b t u0 d :=
  funext fun a => Fin.ext (by
    have hb := b.isLt; have ht := t.isLt; have hd := d.isLt
    match a with
    | ⟨0, _⟩ => show ((b.val * 128 + t.val) * 256 + d.val) / 32768 = b.val; omega
    | ⟨1, _⟩ => show ((b.val * 128 + t.val) * 256 + d.val) / 256 % 128 = t.val; omega
    | ⟨2, _⟩ => rfl
    | ⟨3, _⟩ => show ((b.val * 128 + t.val) * 256 + d.val) % 256 = d.val; omega)

/-- [64, 128, 1] back to [8192]: state `(b, t)` is row `b·128 + t`. -/
theorem idx_flat (b : Fin 64) (t : Fin 128) : idx_main_v14 (ix3 b t u0) = ix1 (row b t) :=
  funext fun a => Fin.ext (by
    match a with
    | ⟨0, _⟩ => show (b.val * 128 + t.val) * 1 + 0 = b.val * 128 + t.val; omega)

/-- [8192] back to [8192, 1]: row `r` is `(r, 0)`. -/
theorem idx_col (r : Fin 8192) : idx_main_v35 (ix1 r) = ix2 r u0 :=
  funext fun a => Fin.ext (by
    match a with
    | ⟨0, _⟩ => show r.val / 1 = r.val; omega
    | ⟨1, _⟩ => rfl)

/-! ## The evaluations -/

/-- Row `b·128 + t` of the token array this evaluation reads is token 0 of state `(b, t)`. -/
theorem tok_v2 (x0 : (⟨S64x128x9x256, .f32⟩ : BufTy).Contents (Elt F)) (b : Fin 64) (t : Fin 128) (d : Fin 256) :
    val_main_v2 (F := F) x0 (ix2 (row b t) d) = x0 (ix4 b t (0 : Fin 9) d) :=
  (val_main_v2_apply x0 _).trans <| (congrArg (val_main_v1 (F := F) x0) (idx_rows b t d)).trans <|
  (val_main_v1_apply x0 _).trans <| (congrArg (val_main_v0 (F := F) x0) (idx_unit b t d)).trans <|
  (val_main_v0_apply x0 _).trans <| congrArg x0 (funext fun a => match a with
    | ⟨0, _⟩ => rfl | ⟨1, _⟩ => rfl | ⟨2, _⟩ => rfl | ⟨3, _⟩ => rfl)

/-- This evaluation is the network applied to its token array. -/
theorem v12_eq (x0 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v12 (F := F) x0 x3 x4 x5 x6 = mlp (val_main_v2 (F := F) x0) x3 x4 x5 x6 := rfl

/-- This evaluation at row `b·128 + t`, action `j`: the flow of action `j` at token 0 of state `(b, t)`. -/
theorem flow_v12 (x0 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v12 (F := Ideal) x0 x3 x4 x5 x6 (ix2 (row b t) j) = Cert.Flow.flow (Cert.Flow.tok x0 b t 0) x3 x4 x5 x6 j := by
  rw [v12_eq, mlp_apply]
  simp only [tok_v2]
  rfl

/-- Row `b·128 + t` of the token array this evaluation reads is token 1 of state `(b, t)`. -/
theorem tok_v23 (x1 : (⟨S64x128x9x256, .f32⟩ : BufTy).Contents (Elt F)) (b : Fin 64) (t : Fin 128) (d : Fin 256) :
    val_main_v23 (F := F) x1 (ix2 (row b t) d) = x1 (ix4 b t (1 : Fin 9) d) :=
  (val_main_v23_apply x1 _).trans <| (congrArg (val_main_v22 (F := F) x1) (idx_rows b t d)).trans <|
  (val_main_v22_apply x1 _).trans <| (congrArg (val_main_v21 (F := F) x1) (idx_unit b t d)).trans <|
  (val_main_v21_apply x1 _).trans <| congrArg x1 (funext fun a => match a with
    | ⟨0, _⟩ => rfl | ⟨1, _⟩ => rfl | ⟨2, _⟩ => rfl | ⟨3, _⟩ => rfl)

/-- This evaluation is the network applied to its token array. -/
theorem v33_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v33 (F := F) x1 x3 x4 x5 x6 = mlp (val_main_v23 (F := F) x1) x3 x4 x5 x6 := rfl

/-- This evaluation at row `b·128 + t`, action `j`: the flow of action `j` at token 1 of state `(b, t)`. -/
theorem flow_v33 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v33 (F := Ideal) x1 x3 x4 x5 x6 (ix2 (row b t) j) = Cert.Flow.flow (Cert.Flow.tok x1 b t 1) x3 x4 x5 x6 j := by
  rw [v33_eq, mlp_apply]
  simp only [tok_v23]
  rfl

/-- Column 0 of this evaluation, laid out over the states: entry `(b, t)` is row `b·128 + t`, action 0. -/
theorem col_v36 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v36 (F := F) x1 x3 x4 x5 x6 (ix3 b t u0) = val_main_v33 (F := F) x1 x3 x4 x5 x6 (ix2 (row b t) (0 : Fin 8)) :=
  (val_main_v36_apply x1 x3 x4 x5 x6 _).trans <| (congrArg (val_main_v35 (F := F) x1 x3 x4 x5 x6) (idx_flat b t)).trans <|
  (val_main_v35_apply x1 x3 x4 x5 x6 _).trans <| (congrArg (val_main_v34 (F := F) x1 x3 x4 x5 x6) (idx_col (row b t))).trans <|
  (val_main_v34_apply x1 x3 x4 x5 x6 _).trans <| congrArg (val_main_v33 (F := F) x1 x3 x4 x5 x6) (funext fun a => match a with
    | ⟨0, _⟩ => rfl | ⟨1, _⟩ => rfl)

/-- Row `b·128 + t` of the token array this evaluation reads is token 2 of state `(b, t)`. -/
theorem tok_v40 (x1 : (⟨S64x128x9x256, .f32⟩ : BufTy).Contents (Elt F)) (b : Fin 64) (t : Fin 128) (d : Fin 256) :
    val_main_v40 (F := F) x1 (ix2 (row b t) d) = x1 (ix4 b t (2 : Fin 9) d) :=
  (val_main_v40_apply x1 _).trans <| (congrArg (val_main_v39 (F := F) x1) (idx_rows b t d)).trans <|
  (val_main_v39_apply x1 _).trans <| (congrArg (val_main_v38 (F := F) x1) (idx_unit b t d)).trans <|
  (val_main_v38_apply x1 _).trans <| congrArg x1 (funext fun a => match a with
    | ⟨0, _⟩ => rfl | ⟨1, _⟩ => rfl | ⟨2, _⟩ => rfl | ⟨3, _⟩ => rfl)

/-- This evaluation is the network applied to its token array. -/
theorem v50_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v50 (F := F) x1 x3 x4 x5 x6 = mlp (val_main_v40 (F := F) x1) x3 x4 x5 x6 := rfl

/-- This evaluation at row `b·128 + t`, action `j`: the flow of action `j` at token 2 of state `(b, t)`. -/
theorem flow_v50 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v50 (F := Ideal) x1 x3 x4 x5 x6 (ix2 (row b t) j) = Cert.Flow.flow (Cert.Flow.tok x1 b t 2) x3 x4 x5 x6 j := by
  rw [v50_eq, mlp_apply]
  simp only [tok_v40]
  rfl

/-- Column 1 of this evaluation, laid out over the states: entry `(b, t)` is row `b·128 + t`, action 1. -/
theorem col_v53 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v53 (F := F) x1 x3 x4 x5 x6 (ix3 b t u0) = val_main_v50 (F := F) x1 x3 x4 x5 x6 (ix2 (row b t) (1 : Fin 8)) :=
  (val_main_v53_apply x1 x3 x4 x5 x6 _).trans <| (congrArg (val_main_v52 (F := F) x1 x3 x4 x5 x6) (idx_flat b t)).trans <|
  (val_main_v52_apply x1 x3 x4 x5 x6 _).trans <| (congrArg (val_main_v51 (F := F) x1 x3 x4 x5 x6) (idx_col (row b t))).trans <|
  (val_main_v51_apply x1 x3 x4 x5 x6 _).trans <| congrArg (val_main_v50 (F := F) x1 x3 x4 x5 x6) (funext fun a => match a with
    | ⟨0, _⟩ => rfl | ⟨1, _⟩ => rfl)

/-- Row `b·128 + t` of the token array this evaluation reads is token 3 of state `(b, t)`. -/
theorem tok_v57 (x1 : (⟨S64x128x9x256, .f32⟩ : BufTy).Contents (Elt F)) (b : Fin 64) (t : Fin 128) (d : Fin 256) :
    val_main_v57 (F := F) x1 (ix2 (row b t) d) = x1 (ix4 b t (3 : Fin 9) d) :=
  (val_main_v57_apply x1 _).trans <| (congrArg (val_main_v56 (F := F) x1) (idx_rows b t d)).trans <|
  (val_main_v56_apply x1 _).trans <| (congrArg (val_main_v55 (F := F) x1) (idx_unit b t d)).trans <|
  (val_main_v55_apply x1 _).trans <| congrArg x1 (funext fun a => match a with
    | ⟨0, _⟩ => rfl | ⟨1, _⟩ => rfl | ⟨2, _⟩ => rfl | ⟨3, _⟩ => rfl)

/-- This evaluation is the network applied to its token array. -/
theorem v67_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v67 (F := F) x1 x3 x4 x5 x6 = mlp (val_main_v57 (F := F) x1) x3 x4 x5 x6 := rfl

/-- This evaluation at row `b·128 + t`, action `j`: the flow of action `j` at token 3 of state `(b, t)`. -/
theorem flow_v67 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v67 (F := Ideal) x1 x3 x4 x5 x6 (ix2 (row b t) j) = Cert.Flow.flow (Cert.Flow.tok x1 b t 3) x3 x4 x5 x6 j := by
  rw [v67_eq, mlp_apply]
  simp only [tok_v57]
  rfl

/-- Column 2 of this evaluation, laid out over the states: entry `(b, t)` is row `b·128 + t`, action 2. -/
theorem col_v70 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v70 (F := F) x1 x3 x4 x5 x6 (ix3 b t u0) = val_main_v67 (F := F) x1 x3 x4 x5 x6 (ix2 (row b t) (2 : Fin 8)) :=
  (val_main_v70_apply x1 x3 x4 x5 x6 _).trans <| (congrArg (val_main_v69 (F := F) x1 x3 x4 x5 x6) (idx_flat b t)).trans <|
  (val_main_v69_apply x1 x3 x4 x5 x6 _).trans <| (congrArg (val_main_v68 (F := F) x1 x3 x4 x5 x6) (idx_col (row b t))).trans <|
  (val_main_v68_apply x1 x3 x4 x5 x6 _).trans <| congrArg (val_main_v67 (F := F) x1 x3 x4 x5 x6) (funext fun a => match a with
    | ⟨0, _⟩ => rfl | ⟨1, _⟩ => rfl)

/-- Row `b·128 + t` of the token array this evaluation reads is token 4 of state `(b, t)`. -/
theorem tok_v74 (x1 : (⟨S64x128x9x256, .f32⟩ : BufTy).Contents (Elt F)) (b : Fin 64) (t : Fin 128) (d : Fin 256) :
    val_main_v74 (F := F) x1 (ix2 (row b t) d) = x1 (ix4 b t (4 : Fin 9) d) :=
  (val_main_v74_apply x1 _).trans <| (congrArg (val_main_v73 (F := F) x1) (idx_rows b t d)).trans <|
  (val_main_v73_apply x1 _).trans <| (congrArg (val_main_v72 (F := F) x1) (idx_unit b t d)).trans <|
  (val_main_v72_apply x1 _).trans <| congrArg x1 (funext fun a => match a with
    | ⟨0, _⟩ => rfl | ⟨1, _⟩ => rfl | ⟨2, _⟩ => rfl | ⟨3, _⟩ => rfl)

/-- This evaluation is the network applied to its token array. -/
theorem v84_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v84 (F := F) x1 x3 x4 x5 x6 = mlp (val_main_v74 (F := F) x1) x3 x4 x5 x6 := rfl

/-- This evaluation at row `b·128 + t`, action `j`: the flow of action `j` at token 4 of state `(b, t)`. -/
theorem flow_v84 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v84 (F := Ideal) x1 x3 x4 x5 x6 (ix2 (row b t) j) = Cert.Flow.flow (Cert.Flow.tok x1 b t 4) x3 x4 x5 x6 j := by
  rw [v84_eq, mlp_apply]
  simp only [tok_v74]
  rfl

/-- Column 3 of this evaluation, laid out over the states: entry `(b, t)` is row `b·128 + t`, action 3. -/
theorem col_v87 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v87 (F := F) x1 x3 x4 x5 x6 (ix3 b t u0) = val_main_v84 (F := F) x1 x3 x4 x5 x6 (ix2 (row b t) (3 : Fin 8)) :=
  (val_main_v87_apply x1 x3 x4 x5 x6 _).trans <| (congrArg (val_main_v86 (F := F) x1 x3 x4 x5 x6) (idx_flat b t)).trans <|
  (val_main_v86_apply x1 x3 x4 x5 x6 _).trans <| (congrArg (val_main_v85 (F := F) x1 x3 x4 x5 x6) (idx_col (row b t))).trans <|
  (val_main_v85_apply x1 x3 x4 x5 x6 _).trans <| congrArg (val_main_v84 (F := F) x1 x3 x4 x5 x6) (funext fun a => match a with
    | ⟨0, _⟩ => rfl | ⟨1, _⟩ => rfl)

/-- Row `b·128 + t` of the token array this evaluation reads is token 5 of state `(b, t)`. -/
theorem tok_v91 (x1 : (⟨S64x128x9x256, .f32⟩ : BufTy).Contents (Elt F)) (b : Fin 64) (t : Fin 128) (d : Fin 256) :
    val_main_v91 (F := F) x1 (ix2 (row b t) d) = x1 (ix4 b t (5 : Fin 9) d) :=
  (val_main_v91_apply x1 _).trans <| (congrArg (val_main_v90 (F := F) x1) (idx_rows b t d)).trans <|
  (val_main_v90_apply x1 _).trans <| (congrArg (val_main_v89 (F := F) x1) (idx_unit b t d)).trans <|
  (val_main_v89_apply x1 _).trans <| congrArg x1 (funext fun a => match a with
    | ⟨0, _⟩ => rfl | ⟨1, _⟩ => rfl | ⟨2, _⟩ => rfl | ⟨3, _⟩ => rfl)

/-- This evaluation is the network applied to its token array. -/
theorem v101_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v101 (F := F) x1 x3 x4 x5 x6 = mlp (val_main_v91 (F := F) x1) x3 x4 x5 x6 := rfl

/-- This evaluation at row `b·128 + t`, action `j`: the flow of action `j` at token 5 of state `(b, t)`. -/
theorem flow_v101 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v101 (F := Ideal) x1 x3 x4 x5 x6 (ix2 (row b t) j) = Cert.Flow.flow (Cert.Flow.tok x1 b t 5) x3 x4 x5 x6 j := by
  rw [v101_eq, mlp_apply]
  simp only [tok_v91]
  rfl

/-- Column 4 of this evaluation, laid out over the states: entry `(b, t)` is row `b·128 + t`, action 4. -/
theorem col_v104 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v104 (F := F) x1 x3 x4 x5 x6 (ix3 b t u0) = val_main_v101 (F := F) x1 x3 x4 x5 x6 (ix2 (row b t) (4 : Fin 8)) :=
  (val_main_v104_apply x1 x3 x4 x5 x6 _).trans <| (congrArg (val_main_v103 (F := F) x1 x3 x4 x5 x6) (idx_flat b t)).trans <|
  (val_main_v103_apply x1 x3 x4 x5 x6 _).trans <| (congrArg (val_main_v102 (F := F) x1 x3 x4 x5 x6) (idx_col (row b t))).trans <|
  (val_main_v102_apply x1 x3 x4 x5 x6 _).trans <| congrArg (val_main_v101 (F := F) x1 x3 x4 x5 x6) (funext fun a => match a with
    | ⟨0, _⟩ => rfl | ⟨1, _⟩ => rfl)

/-- Row `b·128 + t` of the token array this evaluation reads is token 6 of state `(b, t)`. -/
theorem tok_v108 (x1 : (⟨S64x128x9x256, .f32⟩ : BufTy).Contents (Elt F)) (b : Fin 64) (t : Fin 128) (d : Fin 256) :
    val_main_v108 (F := F) x1 (ix2 (row b t) d) = x1 (ix4 b t (6 : Fin 9) d) :=
  (val_main_v108_apply x1 _).trans <| (congrArg (val_main_v107 (F := F) x1) (idx_rows b t d)).trans <|
  (val_main_v107_apply x1 _).trans <| (congrArg (val_main_v106 (F := F) x1) (idx_unit b t d)).trans <|
  (val_main_v106_apply x1 _).trans <| congrArg x1 (funext fun a => match a with
    | ⟨0, _⟩ => rfl | ⟨1, _⟩ => rfl | ⟨2, _⟩ => rfl | ⟨3, _⟩ => rfl)

/-- This evaluation is the network applied to its token array. -/
theorem v118_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v118 (F := F) x1 x3 x4 x5 x6 = mlp (val_main_v108 (F := F) x1) x3 x4 x5 x6 := rfl

/-- This evaluation at row `b·128 + t`, action `j`: the flow of action `j` at token 6 of state `(b, t)`. -/
theorem flow_v118 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v118 (F := Ideal) x1 x3 x4 x5 x6 (ix2 (row b t) j) = Cert.Flow.flow (Cert.Flow.tok x1 b t 6) x3 x4 x5 x6 j := by
  rw [v118_eq, mlp_apply]
  simp only [tok_v108]
  rfl

/-- Column 5 of this evaluation, laid out over the states: entry `(b, t)` is row `b·128 + t`, action 5. -/
theorem col_v121 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v121 (F := F) x1 x3 x4 x5 x6 (ix3 b t u0) = val_main_v118 (F := F) x1 x3 x4 x5 x6 (ix2 (row b t) (5 : Fin 8)) :=
  (val_main_v121_apply x1 x3 x4 x5 x6 _).trans <| (congrArg (val_main_v120 (F := F) x1 x3 x4 x5 x6) (idx_flat b t)).trans <|
  (val_main_v120_apply x1 x3 x4 x5 x6 _).trans <| (congrArg (val_main_v119 (F := F) x1 x3 x4 x5 x6) (idx_col (row b t))).trans <|
  (val_main_v119_apply x1 x3 x4 x5 x6 _).trans <| congrArg (val_main_v118 (F := F) x1 x3 x4 x5 x6) (funext fun a => match a with
    | ⟨0, _⟩ => rfl | ⟨1, _⟩ => rfl)

/-- Row `b·128 + t` of the token array this evaluation reads is token 7 of state `(b, t)`. -/
theorem tok_v125 (x1 : (⟨S64x128x9x256, .f32⟩ : BufTy).Contents (Elt F)) (b : Fin 64) (t : Fin 128) (d : Fin 256) :
    val_main_v125 (F := F) x1 (ix2 (row b t) d) = x1 (ix4 b t (7 : Fin 9) d) :=
  (val_main_v125_apply x1 _).trans <| (congrArg (val_main_v124 (F := F) x1) (idx_rows b t d)).trans <|
  (val_main_v124_apply x1 _).trans <| (congrArg (val_main_v123 (F := F) x1) (idx_unit b t d)).trans <|
  (val_main_v123_apply x1 _).trans <| congrArg x1 (funext fun a => match a with
    | ⟨0, _⟩ => rfl | ⟨1, _⟩ => rfl | ⟨2, _⟩ => rfl | ⟨3, _⟩ => rfl)

/-- This evaluation is the network applied to its token array. -/
theorem v135_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v135 (F := F) x1 x3 x4 x5 x6 = mlp (val_main_v125 (F := F) x1) x3 x4 x5 x6 := rfl

/-- This evaluation at row `b·128 + t`, action `j`: the flow of action `j` at token 7 of state `(b, t)`. -/
theorem flow_v135 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v135 (F := Ideal) x1 x3 x4 x5 x6 (ix2 (row b t) j) = Cert.Flow.flow (Cert.Flow.tok x1 b t 7) x3 x4 x5 x6 j := by
  rw [v135_eq, mlp_apply]
  simp only [tok_v125]
  rfl

/-- Column 6 of this evaluation, laid out over the states: entry `(b, t)` is row `b·128 + t`, action 6. -/
theorem col_v138 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v138 (F := F) x1 x3 x4 x5 x6 (ix3 b t u0) = val_main_v135 (F := F) x1 x3 x4 x5 x6 (ix2 (row b t) (6 : Fin 8)) :=
  (val_main_v138_apply x1 x3 x4 x5 x6 _).trans <| (congrArg (val_main_v137 (F := F) x1 x3 x4 x5 x6) (idx_flat b t)).trans <|
  (val_main_v137_apply x1 x3 x4 x5 x6 _).trans <| (congrArg (val_main_v136 (F := F) x1 x3 x4 x5 x6) (idx_col (row b t))).trans <|
  (val_main_v136_apply x1 x3 x4 x5 x6 _).trans <| congrArg (val_main_v135 (F := F) x1 x3 x4 x5 x6) (funext fun a => match a with
    | ⟨0, _⟩ => rfl | ⟨1, _⟩ => rfl)

/-- Row `b·128 + t` of the token array this evaluation reads is token 8 of state `(b, t)`. -/
theorem tok_v142 (x1 : (⟨S64x128x9x256, .f32⟩ : BufTy).Contents (Elt F)) (b : Fin 64) (t : Fin 128) (d : Fin 256) :
    val_main_v142 (F := F) x1 (ix2 (row b t) d) = x1 (ix4 b t (8 : Fin 9) d) :=
  (val_main_v142_apply x1 _).trans <| (congrArg (val_main_v141 (F := F) x1) (idx_rows b t d)).trans <|
  (val_main_v141_apply x1 _).trans <| (congrArg (val_main_v140 (F := F) x1) (idx_unit b t d)).trans <|
  (val_main_v140_apply x1 _).trans <| congrArg x1 (funext fun a => match a with
    | ⟨0, _⟩ => rfl | ⟨1, _⟩ => rfl | ⟨2, _⟩ => rfl | ⟨3, _⟩ => rfl)

/-- This evaluation is the network applied to its token array. -/
theorem v152_eq (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) :
    val_main_v152 (F := F) x1 x3 x4 x5 x6 = mlp (val_main_v142 (F := F) x1) x3 x4 x5 x6 := rfl

/-- This evaluation at row `b·128 + t`, action `j`: the flow of action `j` at token 8 of state `(b, t)`. -/
theorem flow_v152 (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) (j : Fin 8) :
    val_main_v152 (F := Ideal) x1 x3 x4 x5 x6 (ix2 (row b t) j) = Cert.Flow.flow (Cert.Flow.tok x1 b t 8) x3 x4 x5 x6 j := by
  rw [v152_eq, mlp_apply]
  simp only [tok_v142]
  rfl

/-- Column 7 of this evaluation, laid out over the states: entry `(b, t)` is row `b·128 + t`, action 7. -/
theorem col_v155 (x1 : (⟨S64x128x9x256, .f32⟩ : BufTy).Contents (Elt F)) (x3 : (⟨S256x512, .f32⟩ : BufTy).Contents (Elt F)) (x4 : (⟨S512, .f32⟩ : BufTy).Contents (Elt F)) (x5 : (⟨S512x8, .f32⟩ : BufTy).Contents (Elt F)) (x6 : (⟨S8, .f32⟩ : BufTy).Contents (Elt F)) (b : Fin 64) (t : Fin 128) :
    val_main_v155 (F := F) x1 x3 x4 x5 x6 (ix3 b t u0) = val_main_v152 (F := F) x1 x3 x4 x5 x6 (ix2 (row b t) (7 : Fin 8)) :=
  (val_main_v155_apply x1 x3 x4 x5 x6 _).trans <| (congrArg (val_main_v154 (F := F) x1 x3 x4 x5 x6) (idx_flat b t)).trans <|
  (val_main_v154_apply x1 x3 x4 x5 x6 _).trans <| (congrArg (val_main_v153 (F := F) x1 x3 x4 x5 x6) (idx_col (row b t))).trans <|
  (val_main_v153_apply x1 x3 x4 x5 x6 _).trans <| congrArg (val_main_v152 (F := F) x1 x3 x4 x5 x6) (funext fun a => match a with
    | ⟨0, _⟩ => rfl | ⟨1, _⟩ => rfl)

end Cert.ReferenceIdeal.RefValue

end
-- ==== Proof.RefValue.lean ====
/-
  The reference's result array is the specification's.

  Its four columns, each read at a state `(b, t)`: the flow in is the eight backward evaluations' columns added up in
  order from a zero array (`0 + x = x`); the flow out is the forward evaluation's eight actions summed from a zero
  initial value; the reward is the reward array reshaped; the initial flow is `1 · initial_flow`, the word `0x3F800000`
  being one. The concatenation along the last axis puts piece `k` in column `k`.
-/
import proofs.«141243_g13606456393761_cont_week2b_929_17_alg».proof.Proof.RefStages

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## The four columns at a state -/

/-- The flow out of state `(b, t)`: the forward evaluation's row `b·128 + t` summed over the eight actions, from zero. -/
theorem fout_at (x0 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) :
    val_main_v14 (F := Ideal) x0 x3 x4 x5 x6 (ix3 b t u0) = Cert.Flow.fOut x0 x3 x4 x5 x6 b t := by
  rw [val_main_v14_apply, idx_flat, val_main_v13_apply, val_main_cst_apply, Ideal.ofBits_def, Ideal.ofBits_zero_f32, zero_add]
  unfold Cert.Flow.fOut
  refine Finset.sum_congr rfl fun k _ => ?_
  have e : idx_main_v13 (ix1 (row b t)) k = ix2 (row b t) k :=
    funext fun a => match a with | ⟨0, _⟩ => rfl | ⟨1, _⟩ => rfl
  rw [e, flow_v12]

/-- The flow into state `(b, t)`: the eight backward evaluations' columns, added in order to a zero array. -/
theorem fin_at (x1 : (⟨S64x128x9x256, .f32⟩ : BufTy).Contents (Elt Ideal)) (x3 : (⟨S256x512, .f32⟩ : BufTy).Contents (Elt Ideal)) (x4 : (⟨S512, .f32⟩ : BufTy).Contents (Elt Ideal)) (x5 : (⟨S512x8, .f32⟩ : BufTy).Contents (Elt Ideal)) (x6 : (⟨S8, .f32⟩ : BufTy).Contents (Elt Ideal)) (b : Fin 64) (t : Fin 128) :
    val_main_v156 (F := Ideal) x1 x3 x4 x5 x6 (ix3 b t u0) = Cert.Flow.fIn x1 x3 x4 x5 x6 b t := by
  have z : val_main_v20 (F := Ideal) (ix3 b t u0) = (0 : EReal) := by
    rw [val_main_v20_apply, val_main_cst_1_apply, Ideal.ofBits_def, Ideal.ofBits_zero_f32]
  rw [val_main_v156_apply, val_main_v139_apply, val_main_v122_apply, val_main_v105_apply, val_main_v88_apply, val_main_v71_apply, val_main_v54_apply, val_main_v37_apply, z,
    col_v36, col_v53, col_v70, col_v87, col_v104, col_v121, col_v138, col_v155,
    flow_v33, flow_v50, flow_v67, flow_v84, flow_v101, flow_v118, flow_v135, flow_v152]
  simp only [Ideal.addf_def, zero_add]
  rfl

/-- The reward column at state `(b, t)`. -/
theorem reward_at (x2 : (⟨S64x128, .f32⟩ : BufTy).Contents (Elt F)) (b : Fin 64) (t : Fin 128) :
    val_main_v15 (F := F) x2 (ix3 b t u0) = x2 (ix2 b t) :=
  (val_main_v15_apply x2 _).trans <| congrArg x2 (funext fun a => Fin.ext (by
    have hb := b.isLt; have ht := t.isLt
    match a with
    | ⟨0, _⟩ => show ((b.val * 128 + t.val) * 1 + 0) / 128 = b.val; omega
    | ⟨1, _⟩ => show ((b.val * 128 + t.val) * 1 + 0) % 128 = t.val; omega))

/-- The initial-flow column: one times the initial flow, everywhere. -/
theorem init_at (x7 : (⟨S1, .f32⟩ : BufTy).Contents (Elt Ideal)) (i : S64x128x1.Idx) :
    val_main_v19 (F := Ideal) x7 i = x7 (ix1 (0 : Fin 1)) := by
  rw [val_main_v19_apply, val_main_v16_apply, val_main_cst_0_apply, val_main_v18_apply, val_main_v17_apply,
    Ideal.ofBits_def, Ideal.ofBits_one_f32, Ideal.mulf_def, one_mul]
  exact congrArg x7 (funext fun a => match a with | ⟨0, _⟩ => rfl)

/-! ## The concatenation at a column -/

/-- The four-column concatenation at column 0 of state `(b, t)` is piece 0 at that state. -/
theorem concat4_0 {α : Type} (p0 p1 p2 p3 : S64x128x1.Idx → α) (b : Fin 64) (t : Fin 128) :
    concatenate S64x128x4 2 [⟨S64x128x1, p0⟩, ⟨S64x128x1, p1⟩, ⟨S64x128x1, p2⟩, ⟨S64x128x1, p3⟩] concatenates_S64x128x1_S64x128x1_S64x128x1_S64x128x1_S64x128x4_d2
      (ix3 b t (⟨0, by decide⟩ : Fin 4)) = p0 (ix3 b t u0) :=
  concatenate_apply_piece (2 : Fin S64x128x4.rank) [⟨S64x128x1, p0⟩, ⟨S64x128x1, p1⟩, ⟨S64x128x1, p2⟩, ⟨S64x128x1, p3⟩] concatenates_S64x128x1_S64x128x1_S64x128x1_S64x128x1_S64x128x4_d2
    (ix3 b t (⟨0, by decide⟩ : Fin 4)) 0 (by simp) S64x128x1 p0 rfl rfl 0 rfl (ix3 b t u0)
    (fun c hc => by
      match c with
      | ⟨0, _⟩ => rfl
      | ⟨1, _⟩ => rfl
      | ⟨2, _⟩ => exact absurd rfl hc)
    rfl

/-- The four-column concatenation at column 1 of state `(b, t)` is piece 1 at that state. -/
theorem concat4_1 {α : Type} (p0 p1 p2 p3 : S64x128x1.Idx → α) (b : Fin 64) (t : Fin 128) :
    concatenate S64x128x4 2 [⟨S64x128x1, p0⟩, ⟨S64x128x1, p1⟩, ⟨S64x128x1, p2⟩, ⟨S64x128x1, p3⟩] concatenates_S64x128x1_S64x128x1_S64x128x1_S64x128x1_S64x128x4_d2
      (ix3 b t (⟨1, by decide⟩ : Fin 4)) = p1 (ix3 b t u0) :=
  concatenate_apply_piece (2 : Fin S64x128x4.rank) [⟨S64x128x1, p0⟩, ⟨S64x128x1, p1⟩, ⟨S64x128x1, p2⟩, ⟨S64x128x1, p3⟩] concatenates_S64x128x1_S64x128x1_S64x128x1_S64x128x1_S64x128x4_d2
    (ix3 b t (⟨1, by decide⟩ : Fin 4)) 1 (by simp) S64x128x1 p1 rfl rfl 1 rfl (ix3 b t u0)
    (fun c hc => by
      match c with
      | ⟨0, _⟩ => rfl
      | ⟨1, _⟩ => rfl
      | ⟨2, _⟩ => exact absurd rfl hc)
    rfl

/-- The four-column concatenation at column 2 of state `(b, t)` is piece 2 at that state. -/
theorem concat4_2 {α : Type} (p0 p1 p2 p3 : S64x128x1.Idx → α) (b : Fin 64) (t : Fin 128) :
    concatenate S64x128x4 2 [⟨S64x128x1, p0⟩, ⟨S64x128x1, p1⟩, ⟨S64x128x1, p2⟩, ⟨S64x128x1, p3⟩] concatenates_S64x128x1_S64x128x1_S64x128x1_S64x128x1_S64x128x4_d2
      (ix3 b t (⟨2, by decide⟩ : Fin 4)) = p2 (ix3 b t u0) :=
  concatenate_apply_piece (2 : Fin S64x128x4.rank) [⟨S64x128x1, p0⟩, ⟨S64x128x1, p1⟩, ⟨S64x128x1, p2⟩, ⟨S64x128x1, p3⟩] concatenates_S64x128x1_S64x128x1_S64x128x1_S64x128x1_S64x128x4_d2
    (ix3 b t (⟨2, by decide⟩ : Fin 4)) 2 (by simp) S64x128x1 p2 rfl rfl 2 rfl (ix3 b t u0)
    (fun c hc => by
      match c with
      | ⟨0, _⟩ => rfl
      | ⟨1, _⟩ => rfl
      | ⟨2, _⟩ => exact absurd rfl hc)
    rfl

/-- The four-column concatenation at column 3 of state `(b, t)` is piece 3 at that state. -/
theorem concat4_3 {α : Type} (p0 p1 p2 p3 : S64x128x1.Idx → α) (b : Fin 64) (t : Fin 128) :
    concatenate S64x128x4 2 [⟨S64x128x1, p0⟩, ⟨S64x128x1, p1⟩, ⟨S64x128x1, p2⟩, ⟨S64x128x1, p3⟩] concatenates_S64x128x1_S64x128x1_S64x128x1_S64x128x1_S64x128x4_d2
      (ix3 b t (⟨3, by decide⟩ : Fin 4)) = p3 (ix3 b t u0) :=
  concatenate_apply_piece (2 : Fin S64x128x4.rank) [⟨S64x128x1, p0⟩, ⟨S64x128x1, p1⟩, ⟨S64x128x1, p2⟩, ⟨S64x128x1, p3⟩] concatenates_S64x128x1_S64x128x1_S64x128x1_S64x128x1_S64x128x4_d2
    (ix3 b t (⟨3, by decide⟩ : Fin 4)) 3 (by simp) S64x128x1 p3 rfl rfl 3 rfl (ix3 b t u0)
    (fun c hc => by
      match c with
      | ⟨0, _⟩ => rfl
      | ⟨1, _⟩ => rfl
      | ⟨2, _⟩ => exact absurd rfl hc)
    rfl

/-! ## The result -/

/-- **The reference's result array, at the extended reals, is the specification's.** -/
theorem ref_is_result
    (x0 x1 : (⟨Cert.ReferenceIdeal.S64x128x9x256, .f32⟩ : BufTy).Contents (Elt Ideal)) (x2 : (⟨Cert.ReferenceIdeal.S64x128, .f32⟩ : BufTy).Contents (Elt Ideal))
    (x3 : (⟨Cert.ReferenceIdeal.S256x512, .f32⟩ : BufTy).Contents (Elt Ideal)) (x4 : (⟨Cert.ReferenceIdeal.S512, .f32⟩ : BufTy).Contents (Elt Ideal))
    (x5 : (⟨Cert.ReferenceIdeal.S512x8, .f32⟩ : BufTy).Contents (Elt Ideal)) (x6 : (⟨Cert.ReferenceIdeal.S8, .f32⟩ : BufTy).Contents (Elt Ideal))
    (x7 : (⟨Cert.ReferenceIdeal.S1, .f32⟩ : BufTy).Contents (Elt Ideal)) :
    Cert.ReferenceIdeal.Read.val_main_v157 (F := Ideal) x0 x1 x2 x3 x4 x5 x6 x7 = Cert.Flow.resultArr x0 x1 x2 x3 x4 x5 x6 x7 := by
  funext i
  obtain ⟨b, t, k, rfl⟩ : ∃ (b : Fin 64) (t : Fin 128) (k : Fin 4), i = ix3 b t k := ⟨i 0, i 1, i 2, eq_ix3 i⟩
  unfold val_main_v157
  match k with
  | ⟨0, _⟩ => exact (concat4_0 _ _ _ _ b t).trans (fin_at x1 x3 x4 x5 x6 b t)
  | ⟨1, _⟩ => exact (concat4_1 _ _ _ _ b t).trans (fout_at x0 x3 x4 x5 x6 b t)
  | ⟨2, _⟩ => exact (concat4_2 _ _ _ _ b t).trans (reward_at x2 b t)
  | ⟨3, _⟩ => exact (concat4_3 _ _ _ _ b t).trans (init_at x7 _)

end Cert.ReferenceIdeal.RefValue

end
-- ==== Proof.lean ====
/-
  The certificate of the flow kernel against its reference.

  Both programs compute, for 64 × 128 states, the four columns (flow in, flow out, reward, initial flow) of the
  specification (Proof/Spec.lean): a two-layer network with a clipped hidden layer and a soft-plus output, applied to
  token 0 of the forward edge tensor (all eight outputs summed: the flow out) and to token a + 1 of the backward edge
  tensor (output a, summed over the eight actions: the flow in).

  The kernel computes them sixteen blocks of four batches at a time, on transposed copies of the edge tensors, with
  the eight backward evaluations unrolled; over the extended reals the roundings to bf16 are the identity, a matrix
  product into a zero accumulator is the plain sum, and the order in which the eight terms are added is the
  reference's, so its result is the specification's array (Proof/KBody … KRun).  The reference evaluates the network
  on whole arrays; its soft-plus carries a NaN test that never fires on the extended reals, a sum started from zero
  and a product with one, each of which drops out (Proof/Ref*).  The frames: each program terminates without a fault
  and leaves its arguments unchanged (Proof/FrameK, Proof/FrameKI for the kernel at both instances; the reference's
  run for the reference).  The idealization rewrote nothing, so the preservation claim is trivial.
-/
import proofs.«141243_g13606456393761_cont_week2b_929_17_alg».proof.Defs
import proofs.«141243_g13606456393761_cont_week2b_929_17_alg».proof.Proof.Gen.Kernel
import proofs.«141243_g13606456393761_cont_week2b_929_17_alg».proof.Proof.Gen.KernelIdeal
import proofs.«141243_g13606456393761_cont_week2b_929_17_alg».proof.Proof.Gen.ReferenceIdeal
import proofs.«141243_g13606456393761_cont_week2b_929_17_alg».proof.Proof.Gen.Pre_finite_inputs
import proofs.«141243_g13606456393761_cont_week2b_929_17_alg».proof.Proof.FrameK
import proofs.«141243_g13606456393761_cont_week2b_929_17_alg».proof.Proof.KRun
import proofs.«141243_g13606456393761_cont_week2b_929_17_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's array of the arguments. -/
theorem algebraic : Cert.algebraic_KernelIdeal_ReferenceIdeal := by
  intro m ρ m' ρ' _ hagree
  refine ⟨fun c => Cert.Flow.resultArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.KV.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v157_eq, Cert.ReferenceIdeal.RefValue.ref_is_result,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
